-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S128x32 .f32) (main_arg12 : FVec F S32 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x32 .f32 := Host.absf main_arg11
  let main_cst_16 : FVec F S_ .f32 := constant S_ .f32 0x7F800000#32
  let main_v45 : FVec F S128x32 .f32 := broadcastInDim S128x32 ![] bcast_S_S128x32 main_cst_16
  let main_v46 : IVec S128x32 1 := cmpf .olt main_v44 main_v45
  let main_c_17 : IVec S_ 1 := constantI S_ 1 1#1
  let main_v47 : IVec S_ 1 := (fun x v => Host.reduce IntOp.andi x v reducesTo_S128x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x32 .f32) (main_arg12 : FVec F S32 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x32 .f32) (main_arg12 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1x128 : Shape := ⟨2, ![1, 128]⟩
abbrev S1x32 : Shape := ⟨2, ![1, 32]⟩
abbrev S4000x128 : Shape := ⟨2, ![4000, 128]⟩
abbrev S4000x1 : Shape := ⟨2, ![4000, 1]⟩
abbrev S1600000x128 : Shape := ⟨2, ![1600000, 128]⟩
abbrev S100000x32 : Shape := ⟨2, ![100000, 32]⟩
abbrev S4000x32 : Shape := ⟨2, ![4000, 32]⟩

abbrev nBuf : Space → Nat
  | .hbm => 80
  | .vmem => 44
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x32, .f32⟩
  | .hbm, ⟨12, _⟩ => ⟨S32, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1x32, .f32⟩
  | .hbm, ⟨33, _⟩ => ⟨S100000x128, .bf16⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .bf16⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S100000x128, .bf16⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .bf16⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S100000x128, .bf16⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x128, .bf16⟩
  | .hbm, ⟨73, _⟩ => ⟨S1600000x128, .f32⟩
  | .hbm, ⟨74, _⟩ => ⟨S_, .f32⟩
  | .hbm, ⟨75, _⟩ => ⟨S100000x128, .f32⟩
  | .hbm, ⟨76, _⟩ => ⟨S1600000x1, .i32⟩
  | .hbm, ⟨77, _⟩ => ⟨S100000x128, .f32⟩
  | .hbm, ⟨78, _⟩ => ⟨S100000x128, .bf16⟩
  | .hbm, ⟨79, _⟩ => ⟨S100000x32, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x1, .f32⟩
  | .local _ .vmem, ⟨4, _⟩ => ⟨S4000x1, .f32⟩
  | .local _ .vmem, ⟨5, _⟩ => ⟨S4000x128, .bf16⟩
  | .local _ .vmem, ⟨6, _⟩ => ⟨S4000x128, .bf16⟩
  | .local _ .vmem, ⟨7, _⟩ => ⟨S4000x128, .f32⟩
  | .local _ .vmem, ⟨8, _⟩ => ⟨S4000x128, .f32⟩
  | .local _ .vmem, ⟨9, _⟩ => ⟨S4000x128, .bf16⟩
  | .local _ .vmem, ⟨10, _⟩ => ⟨S4000x128, .bf16⟩
  | .local _ .vmem, ⟨11, _⟩ => ⟨S4000x1, .f32⟩
  | .local _ .vmem, ⟨12, _⟩ => ⟨S4000x1, .f32⟩
  | .local _ .vmem, ⟨13, _⟩ => ⟨S1x128, .f32⟩
  | .local _ .vmem, ⟨14, _⟩ => ⟨S128x128, .f32⟩
  | .local _ .vmem, ⟨15, _⟩ => ⟨S4000x128, .bf16⟩
  | .local _ .vmem, ⟨16, _⟩ => ⟨S4000x128, .bf16⟩
  | .local _ .vmem, ⟨17, _⟩ => ⟨S4000x128, .f32⟩
  | .local _ .vmem, ⟨18, _⟩ => ⟨S4000x128, .f32⟩
  | .local _ .vmem, ⟨19, _⟩ => ⟨S4000x128, .bf16⟩
  | .local _ .vmem, ⟨20, _⟩ => ⟨S4000x128, .bf16⟩
  | .local _ .vmem, ⟨21, _⟩ => ⟨S4000x1, .f32⟩
  | .local _ .vmem, ⟨22, _⟩ => ⟨S4000x1, .f32⟩
  | .local _ .vmem, ⟨23, _⟩ => ⟨S1x128, .f32⟩
  | .local _ .vmem, ⟨24, _⟩ => ⟨S128x128, .f32⟩
  | .local _ .vmem, ⟨25, _⟩ => ⟨S4000x128, .bf16⟩
  | .local _ .vmem, ⟨26, _⟩ => ⟨S4000x128, .bf16⟩
  | .local _ .vmem, ⟨27, _⟩ => ⟨S4000x128, .f32⟩
  | .local _ .vmem, ⟨28, _⟩ => ⟨S4000x128, .f32⟩
  | .local _ .vmem, ⟨29, _⟩ => ⟨S4000x128, .bf16⟩
  | .local _ .vmem, ⟨30, _⟩ => ⟨S4000x128, .bf16⟩
  | .local _ .vmem, ⟨31, _⟩ => ⟨S4000x1, .f32⟩
  | .local _ .vmem, ⟨32, _⟩ => ⟨S4000x1, .f32⟩
  | .local _ .vmem, ⟨33, _⟩ => ⟨S1x128, .f32⟩
  | .local _ .vmem, ⟨34, _⟩ => ⟨S128x128, .f32⟩
  | .local _ .vmem, ⟨35, _⟩ => ⟨S1x128, .f32⟩
  | .local _ .vmem, ⟨36, _⟩ => ⟨S4000x128, .bf16⟩
  | .local _ .vmem, ⟨37, _⟩ => ⟨S4000x128, .bf16⟩
  | .local _ .vmem, ⟨38, _⟩ => ⟨S4000x128, .bf16⟩
  | .local _ .vmem, ⟨39, _⟩ => ⟨S4000x128, .bf16⟩
  | .local _ .vmem, ⟨40, _⟩ => ⟨S128x32, .f32⟩
  | .local _ .vmem, ⟨41, _⟩ => ⟨S1x32, .f32⟩
  | .local _ .vmem, ⟨42, _⟩ => ⟨S4000x32, .f32⟩
  | .local _ .vmem, ⟨43, _⟩ => ⟨S4000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_7 : Ref sig .tc := ⟨.hbm, 64, rfl⟩
abbrev main_v42 : Ref sig .tc := ⟨.hbm, 65, rfl⟩
abbrev main_v43 : Ref sig .tc := ⟨.hbm, 66, rfl⟩
abbrev main_c_8 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_9 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg6_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg2_0 : Ref sig .tc := ⟨.vmem, 41, rfl⟩
abbrev cc4_stg3_0 : Ref sig .tc := ⟨.vmem, 42, rfl⟩
abbrev cc4_stg3_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem6_1 : DmaSem sig := 37
abbrev cc4_sem0_0 : DmaSem sig := 38
abbrev cc4_sem0_1 : DmaSem sig := 39
abbrev cc4_sem1_0 : DmaSem sig := 40
abbrev cc4_sem2_0 : DmaSem sig := 41
abbrev cc4_sem3_0 : DmaSem sig := 42
abbrev cc4_sem3_1 : DmaSem sig := 43

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S4000x128 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S4000x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S128_S1x128 : S128.ShapeCasts S1x128
  shapeCasts_S32_S1x32 : S32.ShapeCasts S1x32
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  packedbf16_S4000x128_S4000x128_0_0 : (Rect.unit (s := S4000x128) ![0, 0] S4000x128.size inb_S4000x128_S4000x128_0_0).PackedRows (EltTy.packing .bf16)
  bcast_S_S100000x128 : S_.BroadcastsInDim S100000x128 (![] : Fin 0 → Fin S100000x128.rank)
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S4000x32_S4000x32_0_0 : ∀ a, (![0, 0] : Fin 2 → Nat) a + S4000x32.size a ≤ S4000x32.size a
  h_S4000x32 : 0 < S4000x32.numel
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x32_S4000x32_1_0_0_1_n_n_wf : DotDims.WF S4000x128 S128x32 S4000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .bf16 = 32 ∨ (Rect.block (s := S100000x128) S4000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .bf16 = 32 ∨ (Rect.block (s := S100000x128) S4000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .bf16 = 32 ∨ (Rect.block (s := S100000x128) S4000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .bf16 = 32 ∨ (Rect.block (s := S100000x128) S4000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S100000x128.size a
  hwx2_5 : ∀ i : grid2.Coords, EltTy.bits .bf16 = 32 ∨ (Rect.block (s := S100000x128) S4000x128.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .bf16 = 32 ∨ (Rect.block (s := S100000x128) S4000x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S100000x1.size a
  hwx3_2 : ∀ i : grid3.Coords, EltTy.bits .f32 = 32 ∨ (Rect.block (s := S100000x1) S4000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4000x128.size a ≤ S100000x128.size a
  hwx3_6 : ∀ i : grid3.Coords, EltTy.bits .bf16 = 32 ∨ (Rect.block (s := S100000x128) S4000x128.size (cc3_transform_6 i) (hinb3_6 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .bf16 = 32 ∨ (Rect.block (s := S100000x128) S4000x128.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x32.size a ≤ S128x32.size a
  hwx4_1 : ∀ i : grid4.Coords, EltTy.bits .f32 = 32 ∨ (Rect.block (s := S128x32) S128x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x32.size a ≤ S100000x32.size a
  hwx4_3 : ∀ i : grid4.Coords, EltTy.bits .f32 = 32 ∨ (Rect.block (s := S100000x32) S4000x32.size (cc4_transform_3 i) (hinb4_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x32_S4000x32_1_0_0_1_n_n : DotDims S4000x128 S128x32 S4000x32 where
  lhsContracting := [1]
  rhsContracting := [0]
  lhsNonContracting := [0]
  rhsNonContracting := [1]
  lhsBatch := []
  rhsBatch := []
  wf := dot_S4000x128_S128x32_S4000x32_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v40) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v13) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v52) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S4000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v14) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg9) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v15) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v53) S4000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v53) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S128x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v16) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v54) S4000x32.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x32 : Shape := ⟨2, ![100000, 32]⟩
abbrev S1x32 : Shape := ⟨2, ![1, 32]⟩

abbrev nBuf : Space → Nat
  | .hbm => 207
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x32, .f32⟩
  | 12 => ⟨S32, .f32⟩
  | 13 => ⟨S1x1600000, .i32⟩
  | 14 => ⟨S1600000, .i32⟩
  | 15 => ⟨S1x1600000, .i32⟩
  | 16 => ⟨S1600000, .i32⟩
  | 17 => ⟨S100000x128, .f32⟩
  | 18 => ⟨S_, .f32⟩
  | 19 => ⟨S1600000, .f32⟩
  | 20 => ⟨S_, .f32⟩
  | 21 => ⟨S100000, .f32⟩
  | 22 => ⟨S1600000x1, .i32⟩
  | 23 => ⟨S100000, .f32⟩
  | 24 => ⟨S_, .f32⟩
  | 25 => ⟨S100000, .f32⟩
  | 26 => ⟨S100000, .f32⟩
  | 27 => ⟨S100000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x128, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000, .f32⟩
  | 55 => ⟨S1600000, .f32⟩
  | 56 => ⟨S1600000x1, .f32⟩
  | 57 => ⟨S1600000x128, .f32⟩
  | 58 => ⟨S1600000x128, .f32⟩
  | 59 => ⟨S_, .f32⟩
  | 60 => ⟨S100000x128, .f32⟩
  | 61 => ⟨S1600000x1, .i32⟩
  | 62 => ⟨S100000x128, .f32⟩
  | 63 => ⟨S100000, .f32⟩
  | 64 => ⟨S100000x1, .f32⟩
  | 65 => ⟨S100000x128, .f32⟩
  | 66 => ⟨S100000x128, .f32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x128, .f32⟩
  | 75 => ⟨S_, .f32⟩
  | 76 => ⟨S1600000, .f32⟩
  | 77 => ⟨S_, .f32⟩
  | 78 => ⟨S100000, .f32⟩
  | 79 => ⟨S1600000x1, .i32⟩
  | 80 => ⟨S100000, .f32⟩
  | 81 => ⟨S_, .f32⟩
  | 82 => ⟨S100000, .f32⟩
  | 83 => ⟨S100000, .f32⟩
  | 84 => ⟨S100000, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000x128, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000, .f32⟩
  | 112 => ⟨S1600000, .f32⟩
  | 113 => ⟨S1600000x1, .f32⟩
  | 114 => ⟨S1600000x128, .f32⟩
  | 115 => ⟨S1600000x128, .f32⟩
  | 116 => ⟨S_, .f32⟩
  | 117 => ⟨S100000x128, .f32⟩
  | 118 => ⟨S1600000x1, .i32⟩
  | 119 => ⟨S100000x128, .f32⟩
  | 120 => ⟨S100000, .f32⟩
  | 121 => ⟨S100000x1, .f32⟩
  | 122 => ⟨S100000x128, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S100000x128, .f32⟩

abbrev hbmTy0_1 (i : Nat) : BufTy := match i % 128 with
  | 0 => ⟨S_, .f32⟩
  | 1 => ⟨S100000x128, .f32⟩
  | 2 => ⟨S100000x128, .f32⟩
  | 3 => ⟨S100000x128, .f32⟩
  | 4 => ⟨S_, .f32⟩
  | 5 => ⟨S1600000, .f32⟩
  | 6 => ⟨S_, .f32⟩
  | 7 => ⟨S100000, .f32⟩
  | 8 => ⟨S1600000x1, .i32⟩
  | 9 => ⟨S100000, .f32⟩
  | 10 => ⟨S_, .f32⟩
  | 11 => ⟨S100000, .f32⟩
  | 12 => ⟨S100000, .f32⟩
  | 13 => ⟨S100000, .f32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S1600000x128, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S1600000x1, .f32⟩
  | 43 => ⟨S1600000x128, .f32⟩
  | 44 => ⟨S1600000x128, .f32⟩
  | 45 => ⟨S_, .f32⟩
  | 46 => ⟨S100000x128, .f32⟩
  | 47 => ⟨S1600000x1, .i32⟩
  | 48 => ⟨S100000x128, .f32⟩
  | 49 => ⟨S100000, .f32⟩
  | 50 => ⟨S100000x1, .f32⟩
  | 51 => ⟨S100000x128, .f32⟩
  | 52 => ⟨S100000x128, .f32⟩
  | 53 => ⟨S100000x128, .f32⟩
  | 54 => ⟨S1x128, .f32⟩
  | 55 => ⟨S100000x128, .f32⟩
  | 56 => ⟨S100000x128, .f32⟩
  | 57 => ⟨S_, .f32⟩
  | 58 => ⟨S100000x128, .f32⟩
  | 59 => ⟨S100000x128, .f32⟩
  | 60 => ⟨S100000x128, .f32⟩
  | 61 => ⟨S1x128, .f32⟩
  | 62 => ⟨S100000x128, .f32⟩
  | 63 => ⟨S100000x128, .f32⟩
  | 64 => ⟨S_, .f32⟩
  | 65 => ⟨S100000x128, .f32⟩
  | 66 => ⟨S100000x128, .f32⟩
  | 67 => ⟨S100000x32, .f32⟩
  | 68 => ⟨S1x32, .f32⟩
  | 69 => ⟨S100000x32, .f32⟩
  | 70 => ⟨S100000x32, .f32⟩
  | 71 => ⟨S100000x32, .f32⟩
  | 72 => ⟨S100000x32, .f32⟩
  | 73 => ⟨S_, .f32⟩
  | 74 => ⟨S100000x32, .f32⟩
  | 75 => ⟨S100000x32, .f32⟩
  | 76 => ⟨S_, .f32⟩
  | 77 => ⟨S100000x32, .f32⟩
  | 78 => ⟨S100000x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_call0_cst : Ref sig .tc := ⟨.hbm, 71, rfl⟩
abbrev main_call0_v0 : Ref sig .tc := ⟨.hbm, 72, rfl⟩
abbrev main_v48 : Ref sig .tc := ⟨.hbm, 73, rfl⟩
abbrev main_v49 : Ref sig .tc := ⟨.hbm, 74, rfl⟩
abbrev main_cst_8 : Ref sig .tc := ⟨.hbm, 75, rfl⟩
abbrev main_v50 : Ref sig .tc := ⟨.hbm, 76, rfl⟩
abbrev main_cst_9 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_10 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_c_11 : Ref sig .tc := ⟨.hbm, 85, rfl⟩
abbrev main_v57 : Ref sig .tc := ⟨.hbm, 86, rfl⟩
abbrev main_v58 : Ref sig .tc := ⟨.hbm, 87, rfl⟩
abbrev main_c_12 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_13 : Ref sig .tc := ⟨.hbm, 94, rfl⟩
abbrev main_v64 : Ref sig .tc := ⟨.hbm, 95, rfl⟩
abbrev main_v65 : Ref sig .tc := ⟨.hbm, 96, rfl⟩
abbrev main_c_14 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_15 : Ref sig .tc := ⟨.hbm, 103, rfl⟩
abbrev main_v71 : Ref sig .tc := ⟨.hbm, 104, rfl⟩
abbrev main_v72 : Ref sig .tc := ⟨.hbm, 105, rfl⟩
abbrev main_c_16 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_17 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_call1_cst : Ref sig .tc := ⟨.hbm, 128, rfl⟩
abbrev main_call1_v0 : Ref sig .tc := ⟨.hbm, 129, rfl⟩
abbrev main_v93 : Ref sig .tc := ⟨.hbm, 130, rfl⟩
abbrev main_v94 : Ref sig .tc := ⟨.hbm, 131, rfl⟩
abbrev main_cst_18 : Ref sig .tc := ⟨.hbm, 132, rfl⟩
abbrev main_v95 : Ref sig .tc := ⟨.hbm, 133, rfl⟩
abbrev main_cst_19 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_20 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_c_21 : Ref sig .tc := ⟨.hbm, 142, rfl⟩
abbrev main_v102 : Ref sig .tc := ⟨.hbm, 143, rfl⟩
abbrev main_v103 : Ref sig .tc := ⟨.hbm, 144, rfl⟩
abbrev main_c_22 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_c_23 : Ref sig .tc := ⟨.hbm, 151, rfl⟩
abbrev main_v109 : Ref sig .tc := ⟨.hbm, 152, rfl⟩
abbrev main_v110 : Ref sig .tc := ⟨.hbm, 153, rfl⟩
abbrev main_c_24 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_c_25 : Ref sig .tc := ⟨.hbm, 160, rfl⟩
abbrev main_v116 : Ref sig .tc := ⟨.hbm, 161, rfl⟩
abbrev main_v117 : Ref sig .tc := ⟨.hbm, 162, rfl⟩
abbrev main_c_26 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_cst_27 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_call2_cst : Ref sig .tc := ⟨.hbm, 185, rfl⟩
abbrev main_call2_v0 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_call3_cst : Ref sig .tc := ⟨.hbm, 192, rfl⟩
abbrev main_call3_v0 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_cst_28 : Ref sig .tc := ⟨.hbm, 201, rfl⟩
abbrev main_v150 : Ref sig .tc := ⟨.hbm, 202, rfl⟩
abbrev main_v151 : Ref sig .tc := ⟨.hbm, 203, rfl⟩
abbrev main_cst_29 : Ref sig .tc := ⟨.hbm, 204, rfl⟩
abbrev main_v152 : Ref sig .tc := ⟨.hbm, 205, rfl⟩
abbrev main_v153 : Ref sig .tc := ⟨.hbm, 206, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  gather_S100000_S1600000x1_S1600000_n_0_n_n_0_1_1_wf : GatherDims.WF S100000 S1600000x1 S1600000 [] [0] [] [0] [] 1 ![1]
  scatter_S100000x128_S1600000x1_S1600000x128_1_0_0_1_wf : ScatterDims.WF S100000x128 S1600000x1 S1600000x128 [1] [0] [0] 1
  dot_S100000x128_S128x32_S100000x32_1_0_0_1_n_n_wf : DotDims.WF S100000x128 S128x32 S100000x32 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf

class Facts : Prop extends Facts₀ where

variable [Facts]
-- ==== Proof.KRun.lean ====
/-
  The idealized kernel's run with its result named.

  @main is five pipelined regions among four stretches of host operations. The generated frame follows every unscoped
  buffer of a core through these nine segments: a stretch leaves the buffers at the stretch's operations applied to
  what it found, a region leaves its output array at what its grid points wrote back and every other buffer as it
  found it. The last boundary's contents are the generated `Gen.W9`; this module states the run with the result
  buffer read there, beside the arguments, which end as launched.
-/
import proofs.«167632_j10067403342134_2_alg».proof.Proof.KernelIdealFrameP

set_option maxRecDepth 16384

noncomputable section

namespace Cert.KernelIdeal.KRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents and every argument as launched. -/
theorem run : θ_run defs (onTc (τ := τ) (main (F := F))) ⟨m, fun _ => 0, ρ⟩ (fun r => ∀ c : Dev nD,
      r.2.mem ((c.tc : Thread nD τ).loc main_v54) = W9 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v54 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c)⟩)

end Cert.KernelIdeal.KRun

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibRowBroadcast.lean ====
/-
  A ROW `[1, b]` spread over `a` rows: the broadcast to `[a, b]` reads, at `(p, c)`, the row's entry of column `c`
  — every row of the result is the one row of the operand. The unit coordinate `u : Fin 1` is whatever the caller
  writes: there is only one.
-/
import Idealize.ShloMosaic.Lib.ValueLayout

namespace Cert.LibRowBroadcast

open Idealize.ShloMosaic Idealize.ShloMosaic.ValueIdx

variable {α : Type}

/-- A row `[1, b]` broadcast to `[a, b]` reads, at `(p, c)`, the row's entry of column `c`. -/
theorem broadcastTo_1b_ab_apply {a b : ℕ} (v : (⟨2, ![1, b]⟩ : Shape).Idx → α) (h : (⟨2, ![1, b]⟩ : Shape).Broadcasts ⟨2, ![a, b]⟩)
    (p : Fin a) (c : Fin b) (u : Fin 1) : broadcastTo ⟨2, ![a, b]⟩ v h (ix2 p c) = v (ix2 u c) := by
  refine broadcastTo_apply v h (ix2 p c) (ix2 u c) fun ax => ?_
  match ax with
  | ⟨0, _⟩ =>
    show u.val = if (1 : ℕ) = 1 then 0 else p.val
    rw [if_pos rfl]; omega
  | ⟨1, _⟩ =>
    show c.val = if b = 1 then 0 else c.val
    split
    · have := c.isLt; omega
    · rfl

end Cert.LibRowBroadcast
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.LibGcnTile.lean ====
/-
  The tiles of a normalised graph-convolution network, read one entry at a time, at the ideal values.

  With `d` the per-node factor (a column, one entry per node), a layer's dense stage is carried out on tiles of rows:

  • the first transform, (X · W)(p, q) · d(p);
  • the finish of a layer, fin(p, k) = max( d(p) · (agg(p, k) + h'(p, k)) + b(k), 0 ), followed either by the next
    transform, (fin · W)(p, q) · d(p), or by a dense layer with its own bias and rectifier,
    max( (fin · W)(p, q) + b₂(q), 0 );
  • the last dense layer and the logistic function, logistic( (X · W)(p, q) + b(q) ).

  Each is stated for a tile of any number of rows as the kernel body spells it: the products as matrix products into
  zero accumulators after changes of float format (which change nothing at the ideal values), the column and the bias
  rows spread over the tile by broadcasts, the rectifier as a maximum with a zero splat. The same four functions are
  then named over whole arrays, and a tile's entry is the whole array's entry once the tile's rows are the array's.
-/
import Idealize.ShloMosaic.PureOps.Ideal.Laws
import Idealize.ShloMosaic.Lib.ValueIdx
import Idealize.ShloMosaic.Lib.Pipeline.Value
import Idealize.ShloMosaic.Lib.ValueLayout
import proofs.«167632_j10067403342134_2_alg».proof.Proof.LibPlainMatmul
import proofs.«167632_j10067403342134_2_alg».proof.Proof.LibRowBroadcast
import proofs.«167632_j10067403342134_2_alg».proof.Proof.LibKeepdims

noncomputable section

namespace Cert.GcnTile

open Idealize.ShloMosaic Idealize.ShloMosaic.ValueIdx

/-- The finish of a layer at node `p`, channel `k`: the node's factor times its aggregated neighbours plus its own
    scaled row, plus the bias, rectified. -/
def fin {N K : ℕ} (d : (⟨2, ![N, 1]⟩ : Shape).Idx → EReal) (agg hp : (⟨2, ![N, K]⟩ : Shape).Idx → EReal)
    (brow : (⟨2, ![1, K]⟩ : Shape).Idx → EReal) (p : Fin N) (k : Fin K) : EReal :=
  max (d (ix2 p 0) * (agg (ix2 p k) + hp (ix2 p k)) + brow (ix2 0 k)) 0

/-! ## A kernel body on a tile of rows -/

/-- The rectified finish as the body spells it, at row `p`, channel `k` of the tile. -/
theorem fin_tile_apply {T K : ℕ} (d : FVec Ideal ⟨2, ![T, 1]⟩ .f32) (hp : FVec Ideal ⟨2, ![T, K]⟩ .bf16)
    (agg : FVec Ideal ⟨2, ![T, K]⟩ .f32) (brow : FVec Ideal ⟨2, ![1, K]⟩ .f32)
    (hd : (⟨2, ![T, 1]⟩ : Shape).ShapeCasts ⟨2, ![T, 1]⟩) (hh : (⟨2, ![T, K]⟩ : Shape).ShapeCasts ⟨2, ![T, K]⟩)
    (hb : (⟨2, ![1, K]⟩ : Shape).ShapeCasts ⟨2, ![1, K]⟩) (hbd : (⟨2, ![T, 1]⟩ : Shape).Broadcasts ⟨2, ![T, K]⟩)
    (hbb : (⟨2, ![1, K]⟩ : Shape).Broadcasts ⟨2, ![T, K]⟩) (hlt : FTy.bf16.bits < FTy.f32.bits) (p : Fin T) (k : Fin K) :
    maximumf (addf (mulf (broadcastTo ⟨2, ![T, K]⟩ (shapeCast ⟨2, ![T, 1]⟩ d hd) hbd)
          (addf (shapeCast ⟨2, ![T, K]⟩ agg hh) (extf .f32 (shapeCast ⟨2, ![T, K]⟩ hp hh) hlt)))
        (broadcastTo ⟨2, ![T, K]⟩ (shapeCast ⟨2, ![1, K]⟩ brow hb) hbb))
      (broadcast ⟨2, ![T, K]⟩ (Scalar.ofBits .f32 0x00000000#32)) (ix2 p k)
      = fin d agg hp brow p k := by
  rw [maximumf_apply, broadcast_apply, addf_apply, mulf_apply, addf_apply, extf_apply, shapeCast_self d, shapeCast_self agg,
    shapeCast_self hp, shapeCast_self brow, LibKeepdims.broadcastTo_a1_ab_apply d hbd p k 0,
    LibRowBroadcast.broadcastTo_1b_ab_apply brow hbb p k 0]
  exact congrArg (max _) Ideal.ofBits_zero_f32

/-- The first transform on a tile: the product with the weights, every row scaled by its node's factor. -/
theorem transform_tile_apply {T K B : ℕ} (D : DotDims ⟨2, ![T, K]⟩ ⟨2, ![K, B]⟩ ⟨2, ![T, B]⟩) (hD : D = DotDims.plain T K B)
    (x : FVec Ideal ⟨2, ![T, K]⟩ .f32) (w : FVec Ideal ⟨2, ![K, B]⟩ .f32) (d : FVec Ideal ⟨2, ![T, 1]⟩ .f32)
    (hd : (⟨2, ![T, 1]⟩ : Shape).ShapeCasts ⟨2, ![T, 1]⟩) (hbd : (⟨2, ![T, 1]⟩ : Shape).Broadcasts ⟨2, ![T, B]⟩)
    (hlt : FTy.bf16.bits < FTy.f32.bits) (p : Fin T) (q : Fin B) :
    truncf .bf16 (mulf (matmul D none (truncf .bf16 x hlt) (truncf .bf16 w hlt) (constant ⟨2, ![T, B]⟩ .f32 0x00000000#32))
        (broadcastTo ⟨2, ![T, B]⟩ (shapeCast ⟨2, ![T, 1]⟩ d hd) hbd)) hlt (ix2 p q)
      = (∑ k : Fin K, x (ix2 p k) * w (ix2 k q)) * d (ix2 p 0) := by
  subst hD
  rw [truncf_apply, mulf_apply, shapeCast_self d, LibKeepdims.broadcastTo_a1_ab_apply d hbd p q 0]
  exact congrArg (· * d (ix2 p 0)) (matmul_plain_zero_apply T K B none (truncf .bf16 x hlt) (truncf .bf16 w hlt) p q)

/-- A layer's finish fused with the next transform, on a tile. -/
theorem finish_transform_tile_apply {T K B : ℕ} (D : DotDims ⟨2, ![T, K]⟩ ⟨2, ![K, B]⟩ ⟨2, ![T, B]⟩) (hD : D = DotDims.plain T K B)
    (d : FVec Ideal ⟨2, ![T, 1]⟩ .f32) (hp : FVec Ideal ⟨2, ![T, K]⟩ .bf16) (agg : FVec Ideal ⟨2, ![T, K]⟩ .f32)
    (brow : FVec Ideal ⟨2, ![1, K]⟩ .f32) (w : FVec Ideal ⟨2, ![K, B]⟩ .f32)
    (hd : (⟨2, ![T, 1]⟩ : Shape).ShapeCasts ⟨2, ![T, 1]⟩) (hh : (⟨2, ![T, K]⟩ : Shape).ShapeCasts ⟨2, ![T, K]⟩)
    (hb : (⟨2, ![1, K]⟩ : Shape).ShapeCasts ⟨2, ![1, K]⟩) (hbd : (⟨2, ![T, 1]⟩ : Shape).Broadcasts ⟨2, ![T, K]⟩)
    (hbd' : (⟨2, ![T, 1]⟩ : Shape).Broadcasts ⟨2, ![T, B]⟩)
    (hbb : (⟨2, ![1, K]⟩ : Shape).Broadcasts ⟨2, ![T, K]⟩) (hlt : FTy.bf16.bits < FTy.f32.bits) (p : Fin T) (q : Fin B) :
    truncf .bf16 (mulf (matmul D none
          (truncf .bf16 (maximumf (addf (mulf (broadcastTo ⟨2, ![T, K]⟩ (shapeCast ⟨2, ![T, 1]⟩ d hd) hbd)
                (addf (shapeCast ⟨2, ![T, K]⟩ agg hh) (extf .f32 (shapeCast ⟨2, ![T, K]⟩ hp hh) hlt)))
              (broadcastTo ⟨2, ![T, K]⟩ (shapeCast ⟨2, ![1, K]⟩ brow hb) hbb))
            (broadcast ⟨2, ![T, K]⟩ (Scalar.ofBits .f32 0x00000000#32))) hlt)
          (truncf .bf16 w hlt) (constant ⟨2, ![T, B]⟩ .f32 0x00000000#32))
        (broadcastTo ⟨2, ![T, B]⟩ (shapeCast ⟨2, ![T, 1]⟩ d hd) hbd')) hlt (ix2 p q)
      = (∑ k : Fin K, fin d agg hp brow p k * w (ix2 k q)) * d (ix2 p 0) := by
  subst hD
  rw [truncf_apply, mulf_apply, shapeCast_self d, LibKeepdims.broadcastTo_a1_ab_apply d hbd' p q 0]
  refine congrArg (· * d (ix2 p 0)) ?_
  refine (matmul_plain_zero_apply T K B none _ (truncf .bf16 w hlt) p q).trans ?_
  refine Finset.sum_congr rfl fun k _ => congrArg (· * w (ix2 k q)) ?_
  rw [truncf_apply]
  exact (congrArg (fun v : FVec Ideal ⟨2, ![T, 1]⟩ .f32 => maximumf (addf (mulf (broadcastTo ⟨2, ![T, K]⟩ v hbd)
          (addf (shapeCast ⟨2, ![T, K]⟩ agg hh) (extf .f32 (shapeCast ⟨2, ![T, K]⟩ hp hh) hlt)))
        (broadcastTo ⟨2, ![T, K]⟩ (shapeCast ⟨2, ![1, K]⟩ brow hb) hbb))
      (broadcast ⟨2, ![T, K]⟩ (Scalar.ofBits .f32 0x00000000#32)) (ix2 p k)) (shapeCast_self d hd).symm).trans
    (fin_tile_apply d hp agg brow hd hh hb hbd hbb hlt p k)

/-- A layer's finish fused with a dense layer (its own bias row and rectifier), on a tile. -/
theorem finish_dense_tile_apply {T K B : ℕ} (D : DotDims ⟨2, ![T, K]⟩ ⟨2, ![K, B]⟩ ⟨2, ![T, B]⟩) (hD : D = DotDims.plain T K B)
    (d : FVec Ideal ⟨2, ![T, 1]⟩ .f32) (hp : FVec Ideal ⟨2, ![T, K]⟩ .bf16) (agg : FVec Ideal ⟨2, ![T, K]⟩ .f32)
    (brow : FVec Ideal ⟨2, ![1, K]⟩ .f32) (w : FVec Ideal ⟨2, ![K, B]⟩ .f32) (b2 : FVec Ideal ⟨2, ![1, B]⟩ .f32)
    (hd : (⟨2, ![T, 1]⟩ : Shape).ShapeCasts ⟨2, ![T, 1]⟩) (hh : (⟨2, ![T, K]⟩ : Shape).ShapeCasts ⟨2, ![T, K]⟩)
    (hb : (⟨2, ![1, K]⟩ : Shape).ShapeCasts ⟨2, ![1, K]⟩) (hb2 : (⟨2, ![1, B]⟩ : Shape).ShapeCasts ⟨2, ![1, B]⟩)
    (hbd : (⟨2, ![T, 1]⟩ : Shape).Broadcasts ⟨2, ![T, K]⟩)
    (hbb : (⟨2, ![1, K]⟩ : Shape).Broadcasts ⟨2, ![T, K]⟩) (hbb2 : (⟨2, ![1, B]⟩ : Shape).Broadcasts ⟨2, ![T, B]⟩)
    (hlt : FTy.bf16.bits < FTy.f32.bits) (p : Fin T) (q : Fin B) :
    truncf .bf16 (maximumf (addf (matmul D none
            (truncf .bf16 (maximumf (addf (mulf (broadcastTo ⟨2, ![T, K]⟩ (shapeCast ⟨2, ![T, 1]⟩ d hd) hbd)
                  (addf (shapeCast ⟨2, ![T, K]⟩ agg hh) (extf .f32 (shapeCast ⟨2, ![T, K]⟩ hp hh) hlt)))
                (broadcastTo ⟨2, ![T, K]⟩ (shapeCast ⟨2, ![1, K]⟩ brow hb) hbb))
              (broadcast ⟨2, ![T, K]⟩ (Scalar.ofBits .f32 0x00000000#32))) hlt)
            (truncf .bf16 w hlt) (constant ⟨2, ![T, B]⟩ .f32 0x00000000#32))
          (broadcastTo ⟨2, ![T, B]⟩ (shapeCast ⟨2, ![1, B]⟩ b2 hb2) hbb2))
        (broadcast ⟨2, ![T, B]⟩ (Scalar.ofBits .f32 0x00000000#32))) hlt (ix2 p q)
      = max ((∑ k : Fin K, fin d agg hp brow p k * w (ix2 k q)) + b2 (ix2 0 q)) 0 := by
  subst hD
  rw [truncf_apply, maximumf_apply, broadcast_apply, addf_apply, shapeCast_self b2,
    LibRowBroadcast.broadcastTo_1b_ab_apply b2 hbb2 p q 0]
  refine (congrArg (max _) Ideal.ofBits_zero_f32).trans (congrArg (fun s => max (s + b2 (ix2 0 q)) 0) ?_)
  refine (matmul_plain_zero_apply T K B none _ (truncf .bf16 w hlt) p q).trans ?_
  refine Finset.sum_congr rfl fun k _ => congrArg (· * w (ix2 k q)) ?_
  rw [truncf_apply]
  exact fin_tile_apply d hp agg brow hd hh hb hbd hbb hlt p k

/-- The last dense layer and the logistic function, on a tile. -/
theorem dense_logistic_tile_apply {T K B : ℕ} (D : DotDims ⟨2, ![T, K]⟩ ⟨2, ![K, B]⟩ ⟨2, ![T, B]⟩) (hD : D = DotDims.plain T K B)
    (x : FVec Ideal ⟨2, ![T, K]⟩ .bf16) (w : FVec Ideal ⟨2, ![K, B]⟩ .f32) (b : FVec Ideal ⟨2, ![1, B]⟩ .f32)
    (hx : (⟨2, ![T, K]⟩ : Shape).ShapeCasts ⟨2, ![T, K]⟩) (hb : (⟨2, ![1, B]⟩ : Shape).ShapeCasts ⟨2, ![1, B]⟩)
    (hbb : (⟨2, ![1, B]⟩ : Shape).Broadcasts ⟨2, ![T, B]⟩) (hlt : FTy.bf16.bits < FTy.f32.bits) (p : Fin T) (q : Fin B) :
    logistic (addf (matmul D none (shapeCast ⟨2, ![T, K]⟩ x hx) (truncf .bf16 w hlt) (constant ⟨2, ![T, B]⟩ .f32 0x00000000#32))
        (broadcastTo ⟨2, ![T, B]⟩ (shapeCast ⟨2, ![1, B]⟩ b hb) hbb)) (ix2 p q)
      = Ideal.logistic ((∑ k : Fin K, x (ix2 p k) * w (ix2 k q)) + b (ix2 0 q)) := by
  subst hD
  have hl : ∀ v : FVec Ideal ⟨2, ![T, B]⟩ .f32, logistic v (ix2 p q) = Ideal.logistic (v (ix2 p q)) := fun _ => rfl
  rw [hl, addf_apply, shapeCast_self b, shapeCast_self x, LibRowBroadcast.broadcastTo_1b_ab_apply b hbb p q 0]
  exact congrArg (fun s => Ideal.logistic (s + b (ix2 0 q))) (matmul_plain_zero_apply T K B none x (truncf .bf16 w hlt) p q)

/-! ## The same functions over whole arrays -/

/-- (X · W)(n, q) · d(n) over all nodes. -/
def transformed {N K B : ℕ} (x : (⟨2, ![N, K]⟩ : Shape).Idx → EReal) (w : (⟨2, ![K, B]⟩ : Shape).Idx → EReal)
    (d : (⟨2, ![N, 1]⟩ : Shape).Idx → EReal) : (⟨2, ![N, B]⟩ : Shape).Idx → EReal :=
  fun i => (∑ k : Fin K, x (ix2 (i 0) k) * w (ix2 k (i 1))) * d (ix2 (i 0) 0)

/-- The finish of a layer over all nodes. -/
def finished {N K : ℕ} (d : (⟨2, ![N, 1]⟩ : Shape).Idx → EReal) (agg hp : (⟨2, ![N, K]⟩ : Shape).Idx → EReal)
    (brow : (⟨2, ![1, K]⟩ : Shape).Idx → EReal) : (⟨2, ![N, K]⟩ : Shape).Idx → EReal :=
  fun i => fin d agg hp brow (i 0) (i 1)

/-- The rectified dense layer max((X · W)(n, q) + b(q), 0) over all nodes. -/
def denseRelu {N K B : ℕ} (x : (⟨2, ![N, K]⟩ : Shape).Idx → EReal) (w : (⟨2, ![K, B]⟩ : Shape).Idx → EReal)
    (b : (⟨2, ![1, B]⟩ : Shape).Idx → EReal) : (⟨2, ![N, B]⟩ : Shape).Idx → EReal :=
  fun i => max ((∑ k : Fin K, x (ix2 (i 0) k) * w (ix2 k (i 1))) + b (ix2 0 (i 1))) 0

/-- logistic((X · W)(n, q) + b(q)) over all nodes. -/
def denseLogistic {N K B : ℕ} (x : (⟨2, ![N, K]⟩ : Shape).Idx → EReal) (w : (⟨2, ![K, B]⟩ : Shape).Idx → EReal)
    (b : (⟨2, ![1, B]⟩ : Shape).Idx → EReal) : (⟨2, ![N, B]⟩ : Shape).Idx → EReal :=
  fun i => Ideal.logistic ((∑ k : Fin K, x (ix2 (i 0) k) * w (ix2 k (i 1))) + b (ix2 0 (i 1)))

theorem finished_apply {N K : ℕ} (d : (⟨2, ![N, 1]⟩ : Shape).Idx → EReal) (agg hp : (⟨2, ![N, K]⟩ : Shape).Idx → EReal)
    (brow : (⟨2, ![1, K]⟩ : Shape).Idx → EReal) (p : Fin N) (k : Fin K) :
    finished d agg hp brow (ix2 p k) = fin d agg hp brow p k := rfl

end Cert.GcnTile

end
-- ==== Proof.KDefs.lean ====
/-
  The idealized kernel's host-side stages and its result, as functions of the argument arrays.

  Outside the five regions @main prepares, once: the source and destination index vectors (the two rows of the edge
  list), the per-node factor d = 1 / sqrt(1 + the number of edges arriving at the node) as a column, and the five bias
  vectors as rows; and, before each of the three finishing regions, the aggregation of the previous region's scaled
  features over the edges: row e of the gathered matrix is row src(e) of h' (a negative index wrapped round once, then
  clamped into range), and the rows are added up into their destination nodes. The result is the composition of the
  regions' whole-array functions with these stages.
-/
import proofs.«167632_j10067403342134_2_alg».proof.Proof.Gen.KernelIdeal
import proofs.«167632_j10067403342134_2_alg».proof.Proof.LibGcnTile

noncomputable section

namespace Cert.KernelIdeal.KDefs

open Cert.KernelIdeal Cert.KernelIdeal.Gen
open Idealize.ShloMosaic Idealize.ShloMosaic.TcCoe Idealize.ShloMosaic.ValueIdx Cert.GcnTile

/-- The edges' source nodes: row 0 of the edge list. -/
def srcOf (ei : IVec S2x1600000 32) : IVec S1600000 32 :=
  shapeCast _ (extractStridedSlice S1x1600000 ![0, 0] ei slices_S2x1600000_S1x1600000_0_0) shapeCasts_S1x1600000_S1600000

/-- The edges' destination nodes: row 1 of the edge list. -/
def dstOf (ei : IVec S2x1600000 32) : IVec S1600000 32 :=
  shapeCast _ (extractStridedSlice S1x1600000 ![1, 0] ei slices_S2x1600000_S1x1600000_1_0) shapeCasts_S1x1600000_S1600000

/-- The destinations as an index column. -/
def dstCol (dst : IVec S1600000 32) : IVec S1600000x1 32 :=
  broadcastInDim S1600000x1 ![0] bcast_S1600000_S1600000x1_0 dst

/-- The sources, a negative one wrapped round by the node count, as an index column. -/
def srcCol (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The per-node factor: the reciprocal square root of one plus the number of arriving edges. -/
def dinvOf (dst : IVec S1600000 32) : FVec Ideal S100000 .f32 :=
  Host.rsqrt (addf (Host.scatterAdd scatter_S100000_S1600000x1_S1600000_n_0_0_1
      (broadcastInDim S100000 ![] bcast_S_S100000 (constant (F := Ideal) S_ .f32 0x00000000#32)) (dstCol dst)
      (broadcastInDim S1600000 ![] bcast_S_S1600000 (constant (F := Ideal) S_ .f32 0x3F800000#32)))
    (broadcastInDim S100000 ![] bcast_S_S100000 (constant (F := Ideal) S_ .f32 0x3F800000#32)))

/-- The factor as a column. -/
def dcolOf (dst : IVec S1600000 32) : FVec Ideal S100000x1 .f32 :=
  shapeCast _ (dinvOf dst) shapeCasts_S100000_S100000x1

/-- A bias vector of 128 channels as a row. -/
def row128 (b : FVec Ideal S128 .f32) : FVec Ideal S1x128 .f32 :=
  shapeCast _ b shapeCasts_S128_S1x128

/-- A bias vector of 32 channels as a row. -/
def row32 (b : FVec Ideal S32 .f32) : FVec Ideal S1x32 .f32 :=
  shapeCast _ b shapeCasts_S32_S1x32

/-- The aggregation over the edges: the rows of `hp` at the edges' sources, added up into the edges' destinations. -/
def aggOf (src dst : IVec S1600000 32) (hp : FVec Ideal S100000x128 .bf16) :
    FVec Ideal S100000x128 .f32 :=
  Host.scatterAdd scatter_S100000x128_S1600000x1_S1600000x128_1_0_0_1
    (broadcastInDim S100000x128 ![] bcast_S_S100000x128 (constant (F := Ideal) S_ .f32 0x00000000#32)) (dstCol dst)
    (extf .f32 (Host.gather gather_S100000x128_S1600000x1_S1600000x128_1_0_n_n_0_1_1128 hp (srcCol src)) bitsLt_bf16_f32)

/-- One layer's output at the kernel's spelling: the finish of the aggregated and the node's own scaled features. -/
def layer (x : FVec Ideal S100000x128 .f32) (ei : IVec S2x1600000 32)
    (w : FVec Ideal S128x128 .f32) (b : FVec Ideal S128 .f32) :
    FVec Ideal S100000x128 .f32 :=
  finished (N := 100000) (K := 128) (dcolOf (dstOf ei))
    (aggOf (srcOf ei) (dstOf ei) (transformed (N := 100000) (K := 128) (B := 128) x w (dcolOf (dstOf ei))))
    (transformed (N := 100000) (K := 128) (B := 128) x w (dcolOf (dstOf ei))) (row128 b)

/-- The kernel's result as a function of the argument arrays. -/
def out (x : FVec Ideal S100000x128 .f32) (ei : IVec S2x1600000 32)
    (w0 : FVec Ideal S128x128 .f32) (b0 : FVec Ideal S128 .f32)
    (w1 : FVec Ideal S128x128 .f32) (b1 : FVec Ideal S128 .f32)
    (w2 : FVec Ideal S128x128 .f32) (b2 : FVec Ideal S128 .f32)
    (wc1 : FVec Ideal S128x128 .f32) (bc1 : FVec Ideal S128 .f32)
    (wc2 : FVec Ideal S128x32 .f32) (bc2 : FVec Ideal S32 .f32) :
    FVec Ideal S100000x32 .f32 :=
  denseLogistic (N := 100000) (K := 128) (B := 32)
    (denseRelu (N := 100000) (K := 128) (B := 128) (layer (layer (layer x ei w0 b0) ei w1 b1) ei w2 b2) wc1 (row128 bc1))
    wc2 (row32 bc2)

end Cert.KernelIdeal.KDefs

end
-- ==== Proof.Reg0.lean ====
/-
  The first region: the transform of the input features.

  Grid point t works on rows 4000·t … 4000·t + 3999 of the node features and of the factor column, and on the whole
  weight matrix; it writes rows 4000·t … of the result. Entry (p, q) of what it writes is (X · W)(4000·t + p, q)
  times the factor of node 4000·t + p. The 25 blocks tile the 100000 rows, so the result array ends holding
  (X · W)(n, q) · d(n) at every (n, q), whatever the region found in its arrays.
-/
import proofs.«167632_j10067403342134_2_alg».proof.Proof.KernelIdealFrameP
import proofs.«167632_j10067403342134_2_alg».proof.Proof.LibGcnTile
import Idealize.ShloMosaic.Lib.Pipeline.Value

set_option maxRecDepth 16384

noncomputable section

namespace Cert.KernelIdeal.Reg0

open Cert.KernelIdeal Cert.KernelIdeal.Gen Cert.KernelIdeal.GenP
open Idealize.ShloMosaic Idealize.ShloMosaic.TcCoe Idealize.SL.Sem Idealize.ShloMosaic.ValueIdx Cert.GcnTile
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's one stored value at row `p`, channel `q` of the tile. -/
theorem pay_apply (x0 : Vec Ideal S4000x128 .f32) (x1 : Vec Ideal S128x128 .f32) (x2 : Vec Ideal S4000x1 .f32)
    (p : Fin 4000) (q : Fin 128) :
    k0_pay1 x0 x1 x2 (ix2 p q) = (∑ k : Fin 128, x0 (ix2 p k) * x1 (ix2 k q)) * x2 (ix2 p 0) := by
  unfold k0_pay1
  exact transform_tile_apply dot_S4000x128_S128x128_S4000x128_1_0_0_1_n_n rfl x0 x1 x2 _ _ _ p q

/-- The index maps over the grid: the row-tiled windows sit at block row t, column block 0; the weights at (0, 0). -/
theorem idx_facts : ∀ t : Fin cfg0.N, win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the transformed features of the arrays as the region finds them. -/
theorem flushed_eq (c : Dev nD) (t : Fin cfg0.N) :
    (dat0 V c).flushed 3 t = ((cfg0.win 3).blk t).view.read (Elt Ideal)
      (transformed (N := 100000) (K := 128) (B := 128) (V c main_arg0) (V c main_arg3) (V c main_v11)) := by
  show (cfg0.win 3).cut (grid0.coords t) ((dat0 V c).after 3 t) = _
  rw [after0_3]
  unfold out0_3
  rw [View.canon_unit_zero hz]
  simp only [View.ld_unit_zero (S := S4000x128) hz, View.ld_unit_zero (S := S128x128) hz, View.ld_unit_zero (S := S4000x1) hz]
  obtain ⟨e0, e1, e2, e3, e4, e5, e6, e7⟩ := idx_facts t
  funext j
  obtain ⟨p, q, rfl⟩ : ∃ (p : Fin 4000) (q : Fin 128), j = ix2 p q := ⟨j 0, j 1, eq_ix2 j⟩
  refine (pay_apply (iblk0 V c 0 t) (iblk0 V c 1 t) (iblk0 V c 2 t) p q).trans ?_
  rw [View.read_apply]
  unfold transformed
  have h0 : ∀ k : Fin 128, iblk0 V c 0 t (ix2 p k)
      = (V c main_arg0 : S100000x128.Idx → EReal) (ix2 ((((cfg0.win 3).blk t).view.emb (ix2 p q)) 0) k) := fun k => by
    unfold iblk0; rw [View.read_apply]
    show (V c main_arg0 : S100000x128.Idx → EReal) _ = _
    refine congrArg (V c main_arg0 : S100000x128.Idx → EReal) ?_
    funext a; apply Fin.ext
    match a with
    | ⟨0, _⟩ => show win0_0.index t (0 : Fin 2) * 4000 + 1 * p.val = win0_3.index t (0 : Fin 2) * 4000 + 1 * p.val; omega
    | ⟨1, _⟩ => show win0_0.index t (1 : Fin 2) * 128 + 1 * k.val = k.val; omega
  have h1 : ∀ k : Fin 128, iblk0 V c 1 t (ix2 k q)
      = (V c main_arg3 : S128x128.Idx → EReal) (ix2 k ((((cfg0.win 3).blk t).view.emb (ix2 p q)) 1)) := fun k => by
    unfold iblk0; rw [View.read_apply]
    show (V c main_arg3 : S128x128.Idx → EReal) _ = _
    refine congrArg (V c main_arg3 : S128x128.Idx → EReal) ?_
    funext a; apply Fin.ext
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega
  have h2 : iblk0 V c 2 t (ix2 p 0)
      = (V c main_v11 : S100000x1.Idx → EReal) (ix2 ((((cfg0.win 3).blk t).view.emb (ix2 p q)) 0) 0) := by
    unfold iblk0; rw [View.read_apply]
    show (V c main_v11 : S100000x1.Idx → EReal) _ = _
    refine congrArg (V c main_v11 : S100000x1.Idx → EReal) ?_
    funext a; apply Fin.ext
    match a with
    | ⟨0, _⟩ => show win0_2.index t (0 : Fin 2) * 4000 + 1 * p.val = win0_3.index t (0 : Fin 2) * 4000 + 1 * p.val; omega
    | ⟨1, _⟩ => show win0_2.index t (1 : Fin 2) * 1 + 1 * 0 = 0; omega
  rw [h2]
  exact congrArg (· * _) (Finset.sum_congr rfl fun k _ => by rw [h0 k, h1 k])

/-- An index of the result array is in point `t`'s block iff each coordinate is in the block's range. -/
theorem mem_blk (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v17).slice (win0_3.rect t)).set ↔ _
  rw [View.set_slice_whole, Rect.mem_set_unit]
  exact Iff.rfl

/-- The result array after the region: the transformed features of the arrays as the region finds them. -/
theorem final (c : Dev nD) : (dat0 V c).arrAt 3 cfg0.N
    = transformed (N := 100000) (K := 128) (B := 128) (V c main_arg0) (V c main_arg3) (V c main_v11) :=
  (dat0 V c).arrAt_eq_of_cover 3 _ (fun t _ => flushed_eq V c t) fun i => by
    have hi0 : (i 0).val < 100000 := (i 0).isLt
    have hi1 : (i 1).val < 128 := (i 1).isLt
    have hN : cfg0.N = 25 := N_0
    have ht : (i 0).val / 4000 < cfg0.N := by rw [hN]; omega
    obtain ⟨-, -, -, -, -, -, e6, e7⟩ := idx_facts ⟨(i 0).val / 4000, ht⟩
    refine ⟨⟨(i 0).val / 4000, ht⟩, flush0_3 _, ?_⟩
    rw [mem_blk]
    intro a
    match a with
    | ⟨0, _⟩ =>
      show win0_3.index ⟨(i 0).val / 4000, ht⟩ (0 : Fin 2) * 4000 ≤ (i 0).val ∧ (i 0).val < win0_3.index ⟨(i 0).val / 4000, ht⟩ (0 : Fin 2) * 4000 + 4000
      rw [e6]; show (i 0).val / 4000 * 4000 ≤ (i 0).val ∧ (i 0).val < (i 0).val / 4000 * 4000 + 4000; omega
    | ⟨1, _⟩ =>
      show win0_3.index ⟨(i 0).val / 4000, ht⟩ (1 : Fin 2) * 128 ≤ (i 1).val ∧ (i 1).val < win0_3.index ⟨(i 0).val / 4000, ht⟩ (1 : Fin 2) * 128 + 128
      rw [e7]; omega

end Cert.KernelIdeal.Reg0

end
-- ==== Proof.Reg1.lean ====
/-
  The second region: the first layer's finish fused with the second layer's transform.

  Grid point t works on rows 4000·t … 4000·t + 3999 of the aggregated features, of the previous scaled features and
  of the factor column, and on the whole bias row and weight matrix. Entry (p, q) of what it writes back is, for node
  n = 4000·t + p: with fin(n, k) = max(d(n) · (agg(n, k) + h'(n, k)) + b(k), 0), the product (fin · W)(n, q) times d(n). The 25 blocks tile the 100000
  rows, so the result array ends holding that function of the arrays as the region finds them, at every (n, q).
-/
import proofs.«167632_j10067403342134_2_alg».proof.Proof.KernelIdealFrameP
import proofs.«167632_j10067403342134_2_alg».proof.Proof.LibGcnTile
import Idealize.ShloMosaic.Lib.Pipeline.Value

set_option maxRecDepth 16384

noncomputable section

namespace Cert.KernelIdeal.Reg1

open Cert.KernelIdeal Cert.KernelIdeal.Gen Cert.KernelIdeal.GenP
open Idealize.ShloMosaic Idealize.ShloMosaic.TcCoe Idealize.SL.Sem Idealize.ShloMosaic.ValueIdx Cert.GcnTile
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's one stored value at row `p`, channel `q` of the tile. -/
theorem pay_apply (v0 : Vec Ideal S4000x1 .f32) (v2 : Vec Ideal S4000x128 .bf16) (v5 : Vec Ideal S4000x128 .f32)
    (v10 : Vec Ideal S1x128 .f32) (v17 : Vec Ideal S128x128 .f32) (p : Fin 4000) (q : Fin 128) :
    k1_pay1 v0 v2 v5 v10 v17 (ix2 p q) = (∑ k : Fin 128, fin v0 v5 v2 v10 p k * v17 (ix2 k q)) * v0 (ix2 p 0) := by
  unfold k1_pay1
  exact finish_transform_tile_apply dot_S4000x128_S128x128_S4000x128_1_0_0_1_n_n rfl v0 v2 v5 v10 v17 _ _ _ _ _ _ _ p q

/-- The index maps over the grid: a row-tiled window sits at block row t, column block 0; a window that is its whole
    array at (0, 0). -/
theorem idx_facts : ∀ t : Fin cfg1.N, win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = win1_5.index t (0 : Fin 2)
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = t.val
    ∧ win1_5.index t (1 : Fin 2) = 0 :=
  (by decide +kernel : ∀ t : Fin grid1.N, _)

set_option maxHeartbeats 1600000 in
/-- What point `t` writes back is block `t` of the region's whole-array function of the arrays as the region finds them. -/
theorem flushed_eq (c : Dev nD) (t : Fin cfg1.N) :
    (dat1 V c).flushed 5 t = ((cfg1.win 5).blk t).view.read (Elt Ideal)
      (transformed (N := 100000) (K := 128) (B := 128) (finished (N := 100000) (K := 128) (V c main_v11) (V c main_v28) (V c main_v17) (V c main_v12)) (V c main_arg5) (V c main_v11)) := by
  show (cfg1.win 5).cut (grid1.coords t) ((dat1 V c).after 5 t) = _
  rw [after1_5]
  unfold out1_5
  rw [View.canon_unit_zero hz]
  simp only [View.ld_unit_zero (S := S4000x128) hz, View.ld_unit_zero (S := S128x128) hz, View.ld_unit_zero (S := S4000x1) hz, View.ld_unit_zero (S := S1x128) hz]
  obtain ⟨e0, e1, e2, e3, e4, e5, e6, e7, e8, e9, e10, e11⟩ := idx_facts t
  funext j
  obtain ⟨p, q, rfl⟩ : ∃ (p : Fin 4000) (q : Fin 128), j = ix2 p q := ⟨j 0, j 1, eq_ix2 j⟩
  refine (pay_apply (iblk1 V c 2 t) (iblk1 V c 1 t) (iblk1 V c 0 t) (iblk1 V c 3 t) (iblk1 V c 4 t) p q).trans ?_
  rw [View.read_apply]
  have hd : iblk1 V c 2 t (ix2 p 0)
      = (V c main_v11 : S100000x1.Idx → EReal) (ix2 ((((cfg1.win 5).blk t).view.emb (ix2 p q)) 0) 0) := by
    unfold iblk1; rw [View.read_apply]
    show (V c main_v11 : S100000x1.Idx → EReal) _ = _
    refine congrArg (V c main_v11 : S100000x1.Idx → EReal) ?_
    funext a; apply Fin.ext
    match a with
    | ⟨0, _⟩ => show win1_2.index t (0 : Fin 2) * 4000 + 1 * p.val = win1_5.index t (0 : Fin 2) * 4000 + 1 * p.val; omega
    | ⟨1, _⟩ => show win1_2.index t (1 : Fin 2) * 1 + 1 * 0 = 0; omega
  have hagg : ∀ k : Fin 128, iblk1 V c 0 t (ix2 p k)
      = (V c main_v28 : S100000x128.Idx → EReal) (ix2 ((((cfg1.win 5).blk t).view.emb (ix2 p q)) 0) k) := fun k => by
    unfold iblk1; rw [View.read_apply]
    show (V c main_v28 : S100000x128.Idx → EReal) _ = _
    refine congrArg (V c main_v28 : S100000x128.Idx → EReal) ?_
    funext a; apply Fin.ext
    match a with
    | ⟨0, _⟩ => show win1_0.index t (0 : Fin 2) * 4000 + 1 * p.val = win1_5.index t (0 : Fin 2) * 4000 + 1 * p.val; omega
    | ⟨1, _⟩ => show win1_0.index t (1 : Fin 2) * 128 + 1 * k.val = k.val; omega
  have hhp : ∀ k : Fin 128, iblk1 V c 1 t (ix2 p k)
      = (V c main_v17 : S100000x128.Idx → EReal) (ix2 ((((cfg1.win 5).blk t).view.emb (ix2 p q)) 0) k) := fun k => by
    unfold iblk1; rw [View.read_apply]
    show (V c main_v17 : S100000x128.Idx → EReal) _ = _
    refine congrArg (V c main_v17 : S100000x128.Idx → EReal) ?_
    funext a; apply Fin.ext
    match a with
    | ⟨0, _⟩ => show win1_1.index t (0 : Fin 2) * 4000 + 1 * p.val = win1_5.index t (0 : Fin 2) * 4000 + 1 * p.val; omega
    | ⟨1, _⟩ => show win1_1.index t (1 : Fin 2) * 128 + 1 * k.val = k.val; omega
  have hbrow : ∀ k : Fin 128, iblk1 V c 3 t (ix2 0 k)
      = (V c main_v12 : S1x128.Idx → EReal) (ix2 0 k) := fun k => by
    unfold iblk1; rw [View.read_apply]
    show (V c main_v12 : S1x128.Idx → EReal) _ = _
    refine congrArg (V c main_v12 : S1x128.Idx → EReal) ?_
    funext a; apply Fin.ext
    match a with
    | ⟨0, _⟩ => show win1_3.index t (0 : Fin 2) * 1 + 1 * 0 = 0; omega
    | ⟨1, _⟩ => show win1_3.index t (1 : Fin 2) * 128 + 1 * k.val = k.val; omega
  have hw : ∀ k : Fin 128, iblk1 V c 4 t (ix2 k q)
      = (V c main_arg5 : S128x128.Idx → EReal) (ix2 k ((((cfg1.win 5).blk t).view.emb (ix2 p q)) 1)) := fun k => by
    unfold iblk1; rw [View.read_apply]
    show (V c main_arg5 : S128x128.Idx → EReal) _ = _
    refine congrArg (V c main_arg5 : S128x128.Idx → EReal) ?_
    funext a; apply Fin.ext
    match a with
    | ⟨0, _⟩ => show win1_4.index t (0 : Fin 2) * 128 + 1 * k.val = k.val; omega
    | ⟨1, _⟩ => show win1_4.index t (1 : Fin 2) * 128 + 1 * q.val = win1_5.index t (1 : Fin 2) * 128 + 1 * q.val; omega
  have hfin : ∀ k : Fin 128, fin (iblk1 V c 2 t) (iblk1 V c 0 t) (iblk1 V c 1 t) (iblk1 V c 3 t) p k
      = finished (N := 100000) (K := 128) (V c main_v11) (V c main_v28) (V c main_v17) (V c main_v12) (ix2 ((((cfg1.win 5).blk t).view.emb (ix2 p q)) 0) k) := fun k => by
    show fin (N := 4000) (K := 128) _ _ _ _ p k = fin (N := 100000) (K := 128) _ _ _ _ ((((cfg1.win 5).blk t).view.emb (ix2 p q)) 0) k
    unfold fin
    exact congrArg₂ (fun a b : EReal => max (a + b) 0) (congrArg₂ (· * ·) hd (congrArg₂ (· + ·) (hagg k) (hhp k))) (hbrow k)
  unfold transformed
  exact congrArg₂ (· * ·) (Finset.sum_congr rfl fun k _ => congrArg₂ (· * ·) (hfin k) (hw k)) hd

/-- The output window's block at point `t` is block row `t`, column block 0. -/
theorem out_idx : ∀ t : Fin cfg1.N, win1_5.index t (0 : Fin 2) = t.val ∧ win1_5.index t (1 : Fin 2) = 0 :=
  (by decide +kernel : ∀ t : Fin grid1.N, _)

/-- An index of the result array is in point `t`'s block iff each coordinate is in the block's range. -/
theorem mem_blk (t : Fin cfg1.N) (i : S100000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v29).slice (win1_5.rect t)).set ↔ _
  rw [View.set_slice_whole, Rect.mem_set_unit]
  exact Iff.rfl

/-- The result array after the region, whatever the region found in it: the 25 blocks tile its rows. -/
theorem final (c : Dev nD) : (dat1 V c).arrAt 5 cfg1.N
    = transformed (N := 100000) (K := 128) (B := 128) (finished (N := 100000) (K := 128) (V c main_v11) (V c main_v28) (V c main_v17) (V c main_v12)) (V c main_arg5) (V c main_v11) :=
  (dat1 V c).arrAt_eq_of_cover 5 _ (fun t _ => flushed_eq V c t) fun i => by
    have hi0 : (i 0).val < 100000 := (i 0).isLt
    have hi1 : (i 1).val < 128 := (i 1).isLt
    have hN : cfg1.N = 25 := N_1
    have ht : (i 0).val / 4000 < cfg1.N := by rw [hN]; omega
    obtain ⟨hT0, hT1⟩ := out_idx ⟨(i 0).val / 4000, ht⟩
    refine ⟨⟨(i 0).val / 4000, ht⟩, flush1_5 _, ?_⟩
    rw [mem_blk]
    intro a
    match a with
    | ⟨0, _⟩ =>
      show win1_5.index ⟨(i 0).val / 4000, ht⟩ (0 : Fin 2) * 4000 ≤ (i 0).val ∧ (i 0).val < win1_5.index ⟨(i 0).val / 4000, ht⟩ (0 : Fin 2) * 4000 + 4000
      rw [hT0]; show (i 0).val / 4000 * 4000 ≤ (i 0).val ∧ (i 0).val < (i 0).val / 4000 * 4000 + 4000; omega
    | ⟨1, _⟩ =>
      show win1_5.index ⟨(i 0).val / 4000, ht⟩ (1 : Fin 2) * 128 ≤ (i 1).val ∧ (i 1).val < win1_5.index ⟨(i 0).val / 4000, ht⟩ (1 : Fin 2) * 128 + 128
      rw [hT1]; omega

end Cert.KernelIdeal.Reg1

end
-- ==== Proof.Reg2.lean ====
/-
  The third region: the second layer's finish fused with the third layer's transform.

  Grid point t works on rows 4000·t … 4000·t + 3999 of the aggregated features, of the previous scaled features and
  of the factor column, and on the whole bias row and weight matrix. Entry (p, q) of what it writes back is, for node
  n = 4000·t + p: with fin(n, k) = max(d(n) · (agg(n, k) + h'(n, k)) + b(k), 0), the product (fin · W)(n, q) times d(n). The 25 blocks tile the 100000
  rows, so the result array ends holding that function of the arrays as the region finds them, at every (n, q).
-/
import proofs.«167632_j10067403342134_2_alg».proof.Proof.KernelIdealFrameP
import proofs.«167632_j10067403342134_2_alg».proof.Proof.LibGcnTile
import Idealize.ShloMosaic.Lib.Pipeline.Value

set_option maxRecDepth 16384

noncomputable section

namespace Cert.KernelIdeal.Reg2

open Cert.KernelIdeal Cert.KernelIdeal.Gen Cert.KernelIdeal.GenP
open Idealize.ShloMosaic Idealize.ShloMosaic.TcCoe Idealize.SL.Sem Idealize.ShloMosaic.ValueIdx Cert.GcnTile
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's one stored value at row `p`, channel `q` of the tile. -/
theorem pay_apply (v0 : Vec Ideal S4000x1 .f32) (v2 : Vec Ideal S4000x128 .bf16) (v5 : Vec Ideal S4000x128 .f32)
    (v10 : Vec Ideal S1x128 .f32) (v17 : Vec Ideal S128x128 .f32) (p : Fin 4000) (q : Fin 128) :
    k2_pay1 v0 v2 v5 v10 v17 (ix2 p q) = (∑ k : Fin 128, fin v0 v5 v2 v10 p k * v17 (ix2 k q)) * v0 (ix2 p 0) := by
  unfold k2_pay1
  exact finish_transform_tile_apply dot_S4000x128_S128x128_S4000x128_1_0_0_1_n_n rfl v0 v2 v5 v10 v17 _ _ _ _ _ _ _ p q

/-- The index maps over the grid: a row-tiled window sits at block row t, column block 0; a window that is its whole
    array at (0, 0). -/
theorem idx_facts : ∀ t : Fin cfg2.N, win2_0.index t (0 : Fin 2) = win2_5.index t (0 : Fin 2)
    ∧ win2_0.index t (1 : Fin 2) = 0
    ∧ win2_1.index t (0 : Fin 2) = win2_5.index t (0 : Fin 2)
    ∧ win2_1.index t (1 : Fin 2) = 0
    ∧ win2_2.index t (0 : Fin 2) = win2_5.index t (0 : Fin 2)
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = t.val
    ∧ win2_5.index t (1 : Fin 2) = 0 :=
  (by decide +kernel : ∀ t : Fin grid2.N, _)

set_option maxHeartbeats 1600000 in
/-- What point `t` writes back is block `t` of the region's whole-array function of the arrays as the region finds them. -/
theorem flushed_eq (c : Dev nD) (t : Fin cfg2.N) :
    (dat2 V c).flushed 5 t = ((cfg2.win 5).blk t).view.read (Elt Ideal)
      (transformed (N := 100000) (K := 128) (B := 128) (finished (N := 100000) (K := 128) (V c main_v11) (V c main_v40) (V c main_v29) (V c main_v13)) (V c main_arg7) (V c main_v11)) := by
  show (cfg2.win 5).cut (grid2.coords t) ((dat2 V c).after 5 t) = _
  rw [after2_5]
  unfold out2_5
  rw [View.canon_unit_zero hz]
  simp only [View.ld_unit_zero (S := S4000x128) hz, View.ld_unit_zero (S := S128x128) hz, View.ld_unit_zero (S := S4000x1) hz, View.ld_unit_zero (S := S1x128) hz]
  obtain ⟨e0, e1, e2, e3, e4, e5, e6, e7, e8, e9, e10, e11⟩ := idx_facts t
  funext j
  obtain ⟨p, q, rfl⟩ : ∃ (p : Fin 4000) (q : Fin 128), j = ix2 p q := ⟨j 0, j 1, eq_ix2 j⟩
  refine (pay_apply (iblk2 V c 2 t) (iblk2 V c 1 t) (iblk2 V c 0 t) (iblk2 V c 3 t) (iblk2 V c 4 t) p q).trans ?_
  rw [View.read_apply]
  have hd : iblk2 V c 2 t (ix2 p 0)
      = (V c main_v11 : S100000x1.Idx → EReal) (ix2 ((((cfg2.win 5).blk t).view.emb (ix2 p q)) 0) 0) := by
    unfold iblk2; rw [View.read_apply]
    show (V c main_v11 : S100000x1.Idx → EReal) _ = _
    refine congrArg (V c main_v11 : S100000x1.Idx → EReal) ?_
    funext a; apply Fin.ext
    match a with
    | ⟨0, _⟩ => show win2_2.index t (0 : Fin 2) * 4000 + 1 * p.val = win2_5.index t (0 : Fin 2) * 4000 + 1 * p.val; omega
    | ⟨1, _⟩ => show win2_2.index t (1 : Fin 2) * 1 + 1 * 0 = 0; omega
  have hagg : ∀ k : Fin 128, iblk2 V c 0 t (ix2 p k)
      = (V c main_v40 : S100000x128.Idx → EReal) (ix2 ((((cfg2.win 5).blk t).view.emb (ix2 p q)) 0) k) := fun k => by
    unfold iblk2; rw [View.read_apply]
    show (V c main_v40 : S100000x128.Idx → EReal) _ = _
    refine congrArg (V c main_v40 : S100000x128.Idx → EReal) ?_
    funext a; apply Fin.ext
    match a with
    | ⟨0, _⟩ => show win2_0.index t (0 : Fin 2) * 4000 + 1 * p.val = win2_5.index t (0 : Fin 2) * 4000 + 1 * p.val; omega
    | ⟨1, _⟩ => show win2_0.index t (1 : Fin 2) * 128 + 1 * k.val = k.val; omega
  have hhp : ∀ k : Fin 128, iblk2 V c 1 t (ix2 p k)
      = (V c main_v29 : S100000x128.Idx → EReal) (ix2 ((((cfg2.win 5).blk t).view.emb (ix2 p q)) 0) k) := fun k => by
    unfold iblk2; rw [View.read_apply]
    show (V c main_v29 : S100000x128.Idx → EReal) _ = _
    refine congrArg (V c main_v29 : S100000x128.Idx → EReal) ?_
    funext a; apply Fin.ext
    match a with
    | ⟨0, _⟩ => show win2_1.index t (0 : Fin 2) * 4000 + 1 * p.val = win2_5.index t (0 : Fin 2) * 4000 + 1 * p.val; omega
    | ⟨1, _⟩ => show win2_1.index t (1 : Fin 2) * 128 + 1 * k.val = k.val; omega
  have hbrow : ∀ k : Fin 128, iblk2 V c 3 t (ix2 0 k)
      = (V c main_v13 : S1x128.Idx → EReal) (ix2 0 k) := fun k => by
    unfold iblk2; rw [View.read_apply]
    show (V c main_v13 : S1x128.Idx → EReal) _ = _
    refine congrArg (V c main_v13 : S1x128.Idx → EReal) ?_
    funext a; apply Fin.ext
    match a with
    | ⟨0, _⟩ => show win2_3.index t (0 : Fin 2) * 1 + 1 * 0 = 0; omega
    | ⟨1, _⟩ => show win2_3.index t (1 : Fin 2) * 128 + 1 * k.val = k.val; omega
  have hw : ∀ k : Fin 128, iblk2 V c 4 t (ix2 k q)
      = (V c main_arg7 : S128x128.Idx → EReal) (ix2 k ((((cfg2.win 5).blk t).view.emb (ix2 p q)) 1)) := fun k => by
    unfold iblk2; rw [View.read_apply]
    show (V c main_arg7 : S128x128.Idx → EReal) _ = _
    refine congrArg (V c main_arg7 : S128x128.Idx → EReal) ?_
    funext a; apply Fin.ext
    match a with
    | ⟨0, _⟩ => show win2_4.index t (0 : Fin 2) * 128 + 1 * k.val = k.val; omega
    | ⟨1, _⟩ => show win2_4.index t (1 : Fin 2) * 128 + 1 * q.val = win2_5.index t (1 : Fin 2) * 128 + 1 * q.val; omega
  have hfin : ∀ k : Fin 128, fin (iblk2 V c 2 t) (iblk2 V c 0 t) (iblk2 V c 1 t) (iblk2 V c 3 t) p k
      = finished (N := 100000) (K := 128) (V c main_v11) (V c main_v40) (V c main_v29) (V c main_v13) (ix2 ((((cfg2.win 5).blk t).view.emb (ix2 p q)) 0) k) := fun k => by
    show fin (N := 4000) (K := 128) _ _ _ _ p k = fin (N := 100000) (K := 128) _ _ _ _ ((((cfg2.win 5).blk t).view.emb (ix2 p q)) 0) k
    unfold fin
    exact congrArg₂ (fun a b : EReal => max (a + b) 0) (congrArg₂ (· * ·) hd (congrArg₂ (· + ·) (hagg k) (hhp k))) (hbrow k)
  unfold transformed
  exact congrArg₂ (· * ·) (Finset.sum_congr rfl fun k _ => congrArg₂ (· * ·) (hfin k) (hw k)) hd

/-- The output window's block at point `t` is block row `t`, column block 0. -/
theorem out_idx : ∀ t : Fin cfg2.N, win2_5.index t (0 : Fin 2) = t.val ∧ win2_5.index t (1 : Fin 2) = 0 :=
  (by decide +kernel : ∀ t : Fin grid2.N, _)

/-- An index of the result array is in point `t`'s block iff each coordinate is in the block's range. -/
theorem mem_blk (t : Fin cfg2.N) (i : S100000x128.Idx) :
    i ∈ ((cfg2.win 5).blk t).view.set ↔ ∀ a : Fin 2, win2_5.index t a * S4000x128.size a ≤ (i a).val ∧ (i a).val < win2_5.index t a * S4000x128.size a + S4000x128.size a := by
  show i ∈ ((View.whole main_v41).slice (win2_5.rect t)).set ↔ _
  rw [View.set_slice_whole, Rect.mem_set_unit]
  exact Iff.rfl

/-- The result array after the region, whatever the region found in it: the 25 blocks tile its rows. -/
theorem final (c : Dev nD) : (dat2 V c).arrAt 5 cfg2.N
    = transformed (N := 100000) (K := 128) (B := 128) (finished (N := 100000) (K := 128) (V c main_v11) (V c main_v40) (V c main_v29) (V c main_v13)) (V c main_arg7) (V c main_v11) :=
  (dat2 V c).arrAt_eq_of_cover 5 _ (fun t _ => flushed_eq V c t) fun i => by
    have hi0 : (i 0).val < 100000 := (i 0).isLt
    have hi1 : (i 1).val < 128 := (i 1).isLt
    have hN : cfg2.N = 25 := N_2
    have ht : (i 0).val / 4000 < cfg2.N := by rw [hN]; omega
    obtain ⟨hT0, hT1⟩ := out_idx ⟨(i 0).val / 4000, ht⟩
    refine ⟨⟨(i 0).val / 4000, ht⟩, flush2_5 _, ?_⟩
    rw [mem_blk]
    intro a
    match a with
    | ⟨0, _⟩ =>
      show win2_5.index ⟨(i 0).val / 4000, ht⟩ (0 : Fin 2) * 4000 ≤ (i 0).val ∧ (i 0).val < win2_5.index ⟨(i 0).val / 4000, ht⟩ (0 : Fin 2) * 4000 + 4000
      rw [hT0]; show (i 0).val / 4000 * 4000 ≤ (i 0).val ∧ (i 0).val < (i 0).val / 4000 * 4000 + 4000; omega
    | ⟨1, _⟩ =>
      show win2_5.index ⟨(i 0).val / 4000, ht⟩ (1 : Fin 2) * 128 ≤ (i 1).val ∧ (i 1).val < win2_5.index ⟨(i 0).val / 4000, ht⟩ (1 : Fin 2) * 128 + 128
      rw [hT1]; omega

end Cert.KernelIdeal.Reg2

end
-- ==== Proof.Reg3.lean ====
/-
  The fourth region: the third layer's finish fused with the classifier's first dense layer.

  Grid point t works on rows 4000·t … 4000·t + 3999 of the aggregated features, of the previous scaled features and
  of the factor column, and on the whole bias row and weight matrix. Entry (p, q) of what it writes back is, for node
  n = 4000·t + p: with fin(n, k) = max(d(n) · (agg(n, k) + h'(n, k)) + b(k), 0), the rectified max((fin · W)(n, q) + b₂(q), 0). The 25 blocks tile the 100000
  rows, so the result array ends holding that function of the arrays as the region finds them, at every (n, q).
-/
import proofs.«167632_j10067403342134_2_alg».proof.Proof.KernelIdealFrameP
import proofs.«167632_j10067403342134_2_alg».proof.Proof.LibGcnTile
import Idealize.ShloMosaic.Lib.Pipeline.Value

set_option maxRecDepth 16384

noncomputable section

namespace Cert.KernelIdeal.Reg3

open Cert.KernelIdeal Cert.KernelIdeal.Gen Cert.KernelIdeal.GenP
open Idealize.ShloMosaic Idealize.ShloMosaic.TcCoe Idealize.SL.Sem Idealize.ShloMosaic.ValueIdx Cert.GcnTile
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's one stored value at row `p`, channel `q` of the tile. -/
theorem pay_apply (v0 : Vec Ideal S4000x1 .f32) (v2 : Vec Ideal S4000x128 .bf16) (v5 : Vec Ideal S4000x128 .f32)
    (v10 : Vec Ideal S1x128 .f32) (v17 : Vec Ideal S128x128 .f32) (v20 : Vec Ideal S1x128 .f32) (p : Fin 4000) (q : Fin 128) :
    k3_pay1 v0 v2 v5 v10 v17 v20 (ix2 p q) = max ((∑ k : Fin 128, fin v0 v5 v2 v10 p k * v17 (ix2 k q)) + v20 (ix2 0 q)) 0 := by
  unfold k3_pay1
  exact finish_dense_tile_apply dot_S4000x128_S128x128_S4000x128_1_0_0_1_n_n rfl v0 v2 v5 v10 v17 v20 _ _ _ _ _ _ _ _ p q

/-- The index maps over the grid: a row-tiled window sits at block row t, column block 0; a window that is its whole
    array at (0, 0). -/
theorem idx_facts : ∀ t : Fin cfg3.N, win3_0.index t (0 : Fin 2) = win3_6.index t (0 : Fin 2)
    ∧ win3_0.index t (1 : Fin 2) = 0
    ∧ win3_1.index t (0 : Fin 2) = win3_6.index t (0 : Fin 2)
    ∧ win3_1.index t (1 : Fin 2) = 0
    ∧ win3_2.index t (0 : Fin 2) = win3_6.index t (0 : Fin 2)
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = t.val
    ∧ win3_6.index t (1 : Fin 2) = 0 :=
  (by decide +kernel : ∀ t : Fin grid3.N, _)

set_option maxHeartbeats 1600000 in
/-- What point `t` writes back is block `t` of the region's whole-array function of the arrays as the region finds them. -/
theorem flushed_eq (c : Dev nD) (t : Fin cfg3.N) :
    (dat3 V c).flushed 6 t = ((cfg3.win 6).blk t).view.read (Elt Ideal)
      (denseRelu (N := 100000) (K := 128) (B := 128) (finished (N := 100000) (K := 128) (V c main_v11) (V c main_v52) (V c main_v41) (V c main_v14)) (V c main_arg9) (V c main_v15)) := by
  show (cfg3.win 6).cut (grid3.coords t) ((dat3 V c).after 6 t) = _
  rw [after3_6]
  unfold out3_6
  rw [View.canon_unit_zero hz]
  simp only [View.ld_unit_zero (S := S4000x128) hz, View.ld_unit_zero (S := S128x128) hz, View.ld_unit_zero (S := S4000x1) hz, View.ld_unit_zero (S := S1x128) hz]
  obtain ⟨e0, e1, e2, e3, e4, e5, e6, e7, e8, e9, e10, e11, e12, e13⟩ := idx_facts t
  funext j
  obtain ⟨p, q, rfl⟩ : ∃ (p : Fin 4000) (q : Fin 128), j = ix2 p q := ⟨j 0, j 1, eq_ix2 j⟩
  refine (pay_apply (iblk3 V c 2 t) (iblk3 V c 1 t) (iblk3 V c 0 t) (iblk3 V c 3 t) (iblk3 V c 4 t) (iblk3 V c 5 t) p q).trans ?_
  rw [View.read_apply]
  have hd : iblk3 V c 2 t (ix2 p 0)
      = (V c main_v11 : S100000x1.Idx → EReal) (ix2 ((((cfg3.win 6).blk t).view.emb (ix2 p q)) 0) 0) := by
    unfold iblk3; rw [View.read_apply]
    show (V c main_v11 : S100000x1.Idx → EReal) _ = _
    refine congrArg (V c main_v11 : S100000x1.Idx → EReal) ?_
    funext a; apply Fin.ext
    match a with
    | ⟨0, _⟩ => show win3_2.index t (0 : Fin 2) * 4000 + 1 * p.val = win3_6.index t (0 : Fin 2) * 4000 + 1 * p.val; omega
    | ⟨1, _⟩ => show win3_2.index t (1 : Fin 2) * 1 + 1 * 0 = 0; omega
  have hagg : ∀ k : Fin 128, iblk3 V c 0 t (ix2 p k)
      = (V c main_v52 : S100000x128.Idx → EReal) (ix2 ((((cfg3.win 6).blk t).view.emb (ix2 p q)) 0) k) := fun k => by
    unfold iblk3; rw [View.read_apply]
    show (V c main_v52 : S100000x128.Idx → EReal) _ = _
    refine congrArg (V c main_v52 : S100000x128.Idx → EReal) ?_
    funext a; apply Fin.ext
    match a with
    | ⟨0, _⟩ => show win3_0.index t (0 : Fin 2) * 4000 + 1 * p.val = win3_6.index t (0 : Fin 2) * 4000 + 1 * p.val; omega
    | ⟨1, _⟩ => show win3_0.index t (1 : Fin 2) * 128 + 1 * k.val = k.val; omega
  have hhp : ∀ k : Fin 128, iblk3 V c 1 t (ix2 p k)
      = (V c main_v41 : S100000x128.Idx → EReal) (ix2 ((((cfg3.win 6).blk t).view.emb (ix2 p q)) 0) k) := fun k => by
    unfold iblk3; rw [View.read_apply]
    show (V c main_v41 : S100000x128.Idx → EReal) _ = _
    refine congrArg (V c main_v41 : S100000x128.Idx → EReal) ?_
    funext a; apply Fin.ext
    match a with
    | ⟨0, _⟩ => show win3_1.index t (0 : Fin 2) * 4000 + 1 * p.val = win3_6.index t (0 : Fin 2) * 4000 + 1 * p.val; omega
    | ⟨1, _⟩ => show win3_1.index t (1 : Fin 2) * 128 + 1 * k.val = k.val; omega
  have hbrow : ∀ k : Fin 128, iblk3 V c 3 t (ix2 0 k)
      = (V c main_v14 : S1x128.Idx → EReal) (ix2 0 k) := fun k => by
    unfold iblk3; rw [View.read_apply]
    show (V c main_v14 : S1x128.Idx → EReal) _ = _
    refine congrArg (V c main_v14 : S1x128.Idx → EReal) ?_
    funext a; apply Fin.ext
    match a with
    | ⟨0, _⟩ => show win3_3.index t (0 : Fin 2) * 1 + 1 * 0 = 0; omega
    | ⟨1, _⟩ => show win3_3.index t (1 : Fin 2) * 128 + 1 * k.val = k.val; omega
  have hw : ∀ k : Fin 128, iblk3 V c 4 t (ix2 k q)
      = (V c main_arg9 : S128x128.Idx → EReal) (ix2 k ((((cfg3.win 6).blk t).view.emb (ix2 p q)) 1)) := fun k => by
    unfold iblk3; rw [View.read_apply]
    show (V c main_arg9 : S128x128.Idx → EReal) _ = _
    refine congrArg (V c main_arg9 : S128x128.Idx → EReal) ?_
    funext a; apply Fin.ext
    match a with
    | ⟨0, _⟩ => show win3_4.index t (0 : Fin 2) * 128 + 1 * k.val = k.val; omega
    | ⟨1, _⟩ => show win3_4.index t (1 : Fin 2) * 128 + 1 * q.val = win3_6.index t (1 : Fin 2) * 128 + 1 * q.val; omega
  have hb2 : iblk3 V c 5 t (ix2 0 q)
      = (V c main_v15 : S1x128.Idx → EReal) (ix2 0 ((((cfg3.win 6).blk t).view.emb (ix2 p q)) 1)) := by
    unfold iblk3; rw [View.read_apply]
    show (V c main_v15 : S1x128.Idx → EReal) _ = _
    refine congrArg (V c main_v15 : S1x128.Idx → EReal) ?_
    funext a; apply Fin.ext
    match a with
    | ⟨0, _⟩ => show win3_5.index t (0 : Fin 2) * 1 + 1 * 0 = 0; omega
    | ⟨1, _⟩ => show win3_5.index t (1 : Fin 2) * 128 + 1 * q.val = win3_6.index t (1 : Fin 2) * 128 + 1 * q.val; omega
  have hfin : ∀ k : Fin 128, fin (iblk3 V c 2 t) (iblk3 V c 0 t) (iblk3 V c 1 t) (iblk3 V c 3 t) p k
      = finished (N := 100000) (K := 128) (V c main_v11) (V c main_v52) (V c main_v41) (V c main_v14) (ix2 ((((cfg3.win 6).blk t).view.emb (ix2 p q)) 0) k) := fun k => by
    show fin (N := 4000) (K := 128) _ _ _ _ p k = fin (N := 100000) (K := 128) _ _ _ _ ((((cfg3.win 6).blk t).view.emb (ix2 p q)) 0) k
    unfold fin
    exact congrArg₂ (fun a b : EReal => max (a + b) 0) (congrArg₂ (· * ·) hd (congrArg₂ (· + ·) (hagg k) (hhp k))) (hbrow k)
  unfold denseRelu
  exact congrArg₂ (fun s b => max (s + b) 0) (Finset.sum_congr rfl fun k _ => congrArg₂ (· * ·) (hfin k) (hw k)) hb2

/-- The output window's block at point `t` is block row `t`, column block 0. -/
theorem out_idx : ∀ t : Fin cfg3.N, win3_6.index t (0 : Fin 2) = t.val ∧ win3_6.index t (1 : Fin 2) = 0 :=
  (by decide +kernel : ∀ t : Fin grid3.N, _)

/-- An index of the result array is in point `t`'s block iff each coordinate is in the block's range. -/
theorem mem_blk (t : Fin cfg3.N) (i : S100000x128.Idx) :
    i ∈ ((cfg3.win 6).blk t).view.set ↔ ∀ a : Fin 2, win3_6.index t a * S4000x128.size a ≤ (i a).val ∧ (i a).val < win3_6.index t a * S4000x128.size a + S4000x128.size a := by
  show i ∈ ((View.whole main_v53).slice (win3_6.rect t)).set ↔ _
  rw [View.set_slice_whole, Rect.mem_set_unit]
  exact Iff.rfl

/-- The result array after the region, whatever the region found in it: the 25 blocks tile its rows. -/
theorem final (c : Dev nD) : (dat3 V c).arrAt 6 cfg3.N
    = denseRelu (N := 100000) (K := 128) (B := 128) (finished (N := 100000) (K := 128) (V c main_v11) (V c main_v52) (V c main_v41) (V c main_v14)) (V c main_arg9) (V c main_v15) :=
  (dat3 V c).arrAt_eq_of_cover 6 _ (fun t _ => flushed_eq V c t) fun i => by
    have hi0 : (i 0).val < 100000 := (i 0).isLt
    have hi1 : (i 1).val < 128 := (i 1).isLt
    have hN : cfg3.N = 25 := N_3
    have ht : (i 0).val / 4000 < cfg3.N := by rw [hN]; omega
    obtain ⟨hT0, hT1⟩ := out_idx ⟨(i 0).val / 4000, ht⟩
    refine ⟨⟨(i 0).val / 4000, ht⟩, flush3_6 _, ?_⟩
    rw [mem_blk]
    intro a
    match a with
    | ⟨0, _⟩ =>
      show win3_6.index ⟨(i 0).val / 4000, ht⟩ (0 : Fin 2) * 4000 ≤ (i 0).val ∧ (i 0).val < win3_6.index ⟨(i 0).val / 4000, ht⟩ (0 : Fin 2) * 4000 + 4000
      rw [hT0]; show (i 0).val / 4000 * 4000 ≤ (i 0).val ∧ (i 0).val < (i 0).val / 4000 * 4000 + 4000; omega
    | ⟨1, _⟩ =>
      show win3_6.index ⟨(i 0).val / 4000, ht⟩ (1 : Fin 2) * 128 ≤ (i 1).val ∧ (i 1).val < win3_6.index ⟨(i 0).val / 4000, ht⟩ (1 : Fin 2) * 128 + 128
      rw [hT1]; omega

end Cert.KernelIdeal.Reg3

end
-- ==== Proof.Reg4.lean ====
/-
  The fifth region: the classifier's second dense layer and the logistic function.

  Grid point t works on rows 4000·t … 4000·t + 3999 of the hidden features and on the whole weight matrix and bias
  row; entry (p, q) of what it writes back is logistic((X · W)(4000·t + p, q) + b(q)). The 25 blocks tile the 100000
  rows, so the result array ends holding that function of the arrays as the region finds them, at every (n, q).
-/
import proofs.«167632_j10067403342134_2_alg».proof.Proof.KernelIdealFrameP
import proofs.«167632_j10067403342134_2_alg».proof.Proof.LibGcnTile
import Idealize.ShloMosaic.Lib.Pipeline.Value

set_option maxRecDepth 16384

noncomputable section

namespace Cert.KernelIdeal.Reg4

open Cert.KernelIdeal Cert.KernelIdeal.Gen Cert.KernelIdeal.GenP
open Idealize.ShloMosaic Idealize.ShloMosaic.TcCoe Idealize.SL.Sem Idealize.ShloMosaic.ValueIdx Cert.GcnTile
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's one stored value at row `p`, channel `q` of the tile. -/
theorem pay_apply (v0 : Vec Ideal S4000x128 .bf16) (v2 : Vec Ideal S128x32 .f32) (v5 : Vec Ideal S1x32 .f32) (p : Fin 4000) (q : Fin 32) :
    k4_pay1 v0 v2 v5 (ix2 p q) = Ideal.logistic ((∑ k : Fin 128, v0 (ix2 p k) * v2 (ix2 k q)) + v5 (ix2 0 q)) := by
  unfold k4_pay1
  exact dense_logistic_tile_apply dot_S4000x128_S128x32_S4000x32_1_0_0_1_n_n rfl v0 v2 v5 _ _ _ _ p q

/-- The index maps over the grid: a row-tiled window sits at block row t, column block 0; a window that is its whole
    array at (0, 0). -/
theorem idx_facts : ∀ t : Fin cfg4.N, win4_0.index t (0 : Fin 2) = win4_3.index t (0 : Fin 2)
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = t.val
    ∧ win4_3.index t (1 : Fin 2) = 0 :=
  (by decide +kernel : ∀ t : Fin grid4.N, _)

/-- What point `t` writes back is block `t` of the region's whole-array function of the arrays as the region finds them. -/
theorem flushed_eq (c : Dev nD) (t : Fin cfg4.N) :
    (dat4 V c).flushed 3 t = ((cfg4.win 3).blk t).view.read (Elt Ideal)
      (denseLogistic (N := 100000) (K := 128) (B := 32) (V c main_v53) (V c main_arg11) (V c main_v16)) := by
  show (cfg4.win 3).cut (grid4.coords t) ((dat4 V c).after 3 t) = _
  rw [after4_3]
  unfold out4_3
  rw [View.canon_unit_zero hz]
  simp only [View.ld_unit_zero (S := S4000x128) hz, View.ld_unit_zero (S := S128x32) hz, View.ld_unit_zero (S := S1x32) hz, View.ld_unit_zero (S := S4000x32) hz]
  obtain ⟨e0, e1, e2, e3, e4, e5, e6, e7⟩ := idx_facts t
  funext j
  obtain ⟨p, q, rfl⟩ : ∃ (p : Fin 4000) (q : Fin 32), j = ix2 p q := ⟨j 0, j 1, eq_ix2 j⟩
  refine (pay_apply (iblk4 V c 0 t) (iblk4 V c 1 t) (iblk4 V c 2 t) p q).trans ?_
  rw [View.read_apply]
  have hx : ∀ k : Fin 128, iblk4 V c 0 t (ix2 p k)
      = (V c main_v53 : S100000x128.Idx → EReal) (ix2 ((((cfg4.win 3).blk t).view.emb (ix2 p q)) 0) k) := fun k => by
    unfold iblk4; rw [View.read_apply]
    show (V c main_v53 : S100000x128.Idx → EReal) _ = _
    refine congrArg (V c main_v53 : S100000x128.Idx → EReal) ?_
    funext a; apply Fin.ext
    match a with
    | ⟨0, _⟩ => show win4_0.index t (0 : Fin 2) * 4000 + 1 * p.val = win4_3.index t (0 : Fin 2) * 4000 + 1 * p.val; omega
    | ⟨1, _⟩ => show win4_0.index t (1 : Fin 2) * 128 + 1 * k.val = k.val; omega
  have hw : ∀ k : Fin 128, iblk4 V c 1 t (ix2 k q)
      = (V c main_arg11 : S128x32.Idx → EReal) (ix2 k ((((cfg4.win 3).blk t).view.emb (ix2 p q)) 1)) := fun k => by
    unfold iblk4; rw [View.read_apply]
    show (V c main_arg11 : S128x32.Idx → EReal) _ = _
    refine congrArg (V c main_arg11 : S128x32.Idx → EReal) ?_
    funext a; apply Fin.ext
    match a with
    | ⟨0, _⟩ => show win4_1.index t (0 : Fin 2) * 128 + 1 * k.val = k.val; omega
    | ⟨1, _⟩ => show win4_1.index t (1 : Fin 2) * 32 + 1 * q.val = win4_3.index t (1 : Fin 2) * 32 + 1 * q.val; omega
  have hb : iblk4 V c 2 t (ix2 0 q)
      = (V c main_v16 : S1x32.Idx → EReal) (ix2 0 ((((cfg4.win 3).blk t).view.emb (ix2 p q)) 1)) := by
    unfold iblk4; rw [View.read_apply]
    show (V c main_v16 : S1x32.Idx → EReal) _ = _
    refine congrArg (V c main_v16 : S1x32.Idx → EReal) ?_
    funext a; apply Fin.ext
    match a with
    | ⟨0, _⟩ => show win4_2.index t (0 : Fin 2) * 1 + 1 * 0 = 0; omega
    | ⟨1, _⟩ => show win4_2.index t (1 : Fin 2) * 32 + 1 * q.val = win4_3.index t (1 : Fin 2) * 32 + 1 * q.val; omega
  unfold denseLogistic
  rw [hb]
  exact congrArg (fun s => Ideal.logistic (s + _)) (Finset.sum_congr rfl fun k _ => by rw [hx k, hw k])

/-- The output window's block at point `t` is block row `t`, column block 0. -/
theorem out_idx : ∀ t : Fin cfg4.N, win4_3.index t (0 : Fin 2) = t.val ∧ win4_3.index t (1 : Fin 2) = 0 :=
  (by decide +kernel : ∀ t : Fin grid4.N, _)

/-- An index of the result array is in point `t`'s block iff each coordinate is in the block's range. -/
theorem mem_blk (t : Fin cfg4.N) (i : S100000x32.Idx) :
    i ∈ ((cfg4.win 3).blk t).view.set ↔ ∀ a : Fin 2, win4_3.index t a * S4000x32.size a ≤ (i a).val ∧ (i a).val < win4_3.index t a * S4000x32.size a + S4000x32.size a := by
  show i ∈ ((View.whole main_v54).slice (win4_3.rect t)).set ↔ _
  rw [View.set_slice_whole, Rect.mem_set_unit]
  exact Iff.rfl

/-- The result array after the region, whatever the region found in it: the 25 blocks tile its rows. -/
theorem final (c : Dev nD) : (dat4 V c).arrAt 3 cfg4.N
    = denseLogistic (N := 100000) (K := 128) (B := 32) (V c main_v53) (V c main_arg11) (V c main_v16) :=
  (dat4 V c).arrAt_eq_of_cover 3 _ (fun t _ => flushed_eq V c t) fun i => by
    have hi0 : (i 0).val < 100000 := (i 0).isLt
    have hi1 : (i 1).val < 32 := (i 1).isLt
    have hN : cfg4.N = 25 := N_4
    have ht : (i 0).val / 4000 < cfg4.N := by rw [hN]; omega
    obtain ⟨hT0, hT1⟩ := out_idx ⟨(i 0).val / 4000, ht⟩
    refine ⟨⟨(i 0).val / 4000, ht⟩, flush4_3 _, ?_⟩
    rw [mem_blk]
    intro a
    match a with
    | ⟨0, _⟩ =>
      show win4_3.index ⟨(i 0).val / 4000, ht⟩ (0 : Fin 2) * 4000 ≤ (i 0).val ∧ (i 0).val < win4_3.index ⟨(i 0).val / 4000, ht⟩ (0 : Fin 2) * 4000 + 4000
      rw [hT0]; show (i 0).val / 4000 * 4000 ≤ (i 0).val ∧ (i 0).val < (i 0).val / 4000 * 4000 + 4000; omega
    | ⟨1, _⟩ =>
      show win4_3.index ⟨(i 0).val / 4000, ht⟩ (1 : Fin 2) * 32 ≤ (i 1).val ∧ (i 1).val < win4_3.index ⟨(i 0).val / 4000, ht⟩ (1 : Fin 2) * 32 + 32
      rw [hT1]; omega

end Cert.KernelIdeal.Reg4

end
-- ==== Proof.KVal.lean ====
/-
  The idealized kernel's result as a function of its arguments: the boundary contents followed through @main.

  The generated frame names the contents of a core's buffers at each of the nine segment boundaries of @main. Here
  each buffer that a later segment reads is followed from boundary to boundary: a stretch of host operations
  computes its results from what it finds and leaves every other buffer alone; a region leaves its output array at
  the whole-array function of its input arrays (the region modules) and every other buffer alone, its input arrays
  included. Read in order this gives the prepared index vectors, factor column and bias rows, then the scaled
  features, their aggregation over the edges and the next scaled features three times over, the classifier's hidden
  features and at last the result — each a closed term of the argument arrays.
-/
import proofs.«167632_j10067403342134_2_alg».proof.Proof.KernelIdealFrameP
import proofs.«167632_j10067403342134_2_alg».proof.Proof.KDefs
import proofs.«167632_j10067403342134_2_alg».proof.Proof.Reg0
import proofs.«167632_j10067403342134_2_alg».proof.Proof.Reg1
import proofs.«167632_j10067403342134_2_alg».proof.Proof.Reg2
import proofs.«167632_j10067403342134_2_alg».proof.Proof.Reg3
import proofs.«167632_j10067403342134_2_alg».proof.Proof.Reg4
import Idealize.ShloMosaic.Lib.StableHlo.Run

set_option maxRecDepth 16384

noncomputable section

namespace Cert.KernelIdeal.KVal

open Cert.KernelIdeal Cert.KernelIdeal.Gen Cert.KernelIdeal.GenP Cert.KernelIdeal.KDefs
open Idealize.ShloMosaic Idealize.ShloMosaic.TcCoe Idealize.SL.Sem Idealize.ShloMosaic.ValueIdx Cert.GcnTile
open Idealize.ShloMosaic.StableHlo
open Idealize.ShloMosaic.Pipeline (Dat)

variable (m : (ℓ : Loc nD τ sig) → Buf (Elt Ideal) ℓ) (ρ : Dev nD → PrngReg)

/-! ## The stages as closed terms of the arguments -/

/-- The first layer's scaled features. -/
def hp0 (c : Dev nD) : FVec Ideal S100000x128 .bf16 := transformed (N := 100000) (K := 128) (B := 128) (m ((c : Thread nD τ).loc main_arg0)) (m ((c : Thread nD τ).loc main_arg3)) (dcolOf (dstOf (m ((c : Thread nD τ).loc main_arg1))))
/-- The first layer's output. -/
def lay0 (c : Dev nD) : FVec Ideal S100000x128 .f32 := layer (m ((c : Thread nD τ).loc main_arg0)) (m ((c : Thread nD τ).loc main_arg1)) (m ((c : Thread nD τ).loc main_arg3)) (m ((c : Thread nD τ).loc main_arg4))
/-- The second layer's scaled features. -/
def hp1 (c : Dev nD) : FVec Ideal S100000x128 .bf16 := transformed (N := 100000) (K := 128) (B := 128) (lay0 m c) (m ((c : Thread nD τ).loc main_arg5)) (dcolOf (dstOf (m ((c : Thread nD τ).loc main_arg1))))
/-- The second layer's output. -/
def lay1 (c : Dev nD) : FVec Ideal S100000x128 .f32 := layer (lay0 m c) (m ((c : Thread nD τ).loc main_arg1)) (m ((c : Thread nD τ).loc main_arg5)) (m ((c : Thread nD τ).loc main_arg6))
/-- The third layer's scaled features. -/
def hp2 (c : Dev nD) : FVec Ideal S100000x128 .bf16 := transformed (N := 100000) (K := 128) (B := 128) (lay1 m c) (m ((c : Thread nD τ).loc main_arg7)) (dcolOf (dstOf (m ((c : Thread nD τ).loc main_arg1))))
/-- The third layer's output. -/
def lay2 (c : Dev nD) : FVec Ideal S100000x128 .f32 := layer (lay1 m c) (m ((c : Thread nD τ).loc main_arg1)) (m ((c : Thread nD τ).loc main_arg7)) (m ((c : Thread nD τ).loc main_arg8))
/-- The classifier's hidden features. -/
def hm (c : Dev nD) : FVec Ideal S100000x128 .bf16 := denseRelu (N := 100000) (K := 128) (B := 128) (lay2 m c) (m ((c : Thread nD τ).loc main_arg9)) (row128 (m ((c : Thread nD τ).loc main_arg10)))
/-- The result. -/
def res (c : Dev nD) : FVec Ideal S100000x32 .f32 := denseLogistic (N := 100000) (K := 128) (B := 32) (hm m c) (m ((c : Thread nD τ).loc main_arg11)) (row32 (m ((c : Thread nD τ).loc main_arg12)))

/-- The result is the kernel's function of the argument arrays. -/
theorem res_eq (c : Dev nD) : res m c = KDefs.out (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := rfl

/-! ## A region leaves alone every buffer that is not one of its output arrays -/

theorem keep0 (c : Dev nD) (b : Ref sig .tc) (hb : ∀ w : Fin cfg0.W, (cfg0.win w).isOut = true → Pipeline.arrRef spec0 w ≠ b) :
    W2 m ρ c (Proc.devRef .tc b) = W1 m ρ c (Proc.devRef .tc b) := by
  by_cases h : ∃ w, Pipeline.arrRef spec0 w = b
  · obtain ⟨w, rfl⟩ := h
    have hin : (cfg0.win w).isOut = false := by
      cases hio : (cfg0.win w).isOut with
      | false => rfl
      | true => exact absurd rfl (hb w hio)
    exact (W2_arr m ρ c w).trans (((dat0 (V1 m ρ) c).arrAt_in w hin _).trans (A_eq0 (V1 m ρ) c w))
  · exact W2_of_ne m ρ c b fun w e => h ⟨w, e⟩

theorem keep1 (c : Dev nD) (b : Ref sig .tc) (hb : ∀ w : Fin cfg1.W, (cfg1.win w).isOut = true → Pipeline.arrRef spec1 w ≠ b) :
    W4 m ρ c (Proc.devRef .tc b) = W3 m ρ c (Proc.devRef .tc b) := by
  by_cases h : ∃ w, Pipeline.arrRef spec1 w = b
  · obtain ⟨w, rfl⟩ := h
    have hin : (cfg1.win w).isOut = false := by
      cases hio : (cfg1.win w).isOut with
      | false => rfl
      | true => exact absurd rfl (hb w hio)
    exact (W4_arr m ρ c w).trans (((dat1 (V3 m ρ) c).arrAt_in w hin _).trans (A_eq1 (V3 m ρ) c w))
  · exact W4_of_ne m ρ c b fun w e => h ⟨w, e⟩

theorem keep2 (c : Dev nD) (b : Ref sig .tc) (hb : ∀ w : Fin cfg2.W, (cfg2.win w).isOut = true → Pipeline.arrRef spec2 w ≠ b) :
    W6 m ρ c (Proc.devRef .tc b) = W5 m ρ c (Proc.devRef .tc b) := by
  by_cases h : ∃ w, Pipeline.arrRef spec2 w = b
  · obtain ⟨w, rfl⟩ := h
    have hin : (cfg2.win w).isOut = false := by
      cases hio : (cfg2.win w).isOut with
      | false => rfl
      | true => exact absurd rfl (hb w hio)
    exact (W6_arr m ρ c w).trans (((dat2 (V5 m ρ) c).arrAt_in w hin _).trans (A_eq2 (V5 m ρ) c w))
  · exact W6_of_ne m ρ c b fun w e => h ⟨w, e⟩

theorem keep3 (c : Dev nD) (b : Ref sig .tc) (hb : ∀ w : Fin cfg3.W, (cfg3.win w).isOut = true → Pipeline.arrRef spec3 w ≠ b) :
    W8 m ρ c (Proc.devRef .tc b) = W7 m ρ c (Proc.devRef .tc b) := by
  by_cases h : ∃ w, Pipeline.arrRef spec3 w = b
  · obtain ⟨w, rfl⟩ := h
    have hin : (cfg3.win w).isOut = false := by
      cases hio : (cfg3.win w).isOut with
      | false => rfl
      | true => exact absurd rfl (hb w hio)
    exact (W8_arr m ρ c w).trans (((dat3 (V7 m ρ) c).arrAt_in w hin _).trans (A_eq3 (V7 m ρ) c w))
  · exact W8_of_ne m ρ c b fun w e => h ⟨w, e⟩

theorem keep4 (c : Dev nD) (b : Ref sig .tc) (hb : ∀ w : Fin cfg4.W, (cfg4.win w).isOut = true → Pipeline.arrRef spec4 w ≠ b) :
    W9 m ρ c (Proc.devRef .tc b) = W8 m ρ c (Proc.devRef .tc b) := by
  by_cases h : ∃ w, Pipeline.arrRef spec4 w = b
  · obtain ⟨w, rfl⟩ := h
    have hin : (cfg4.win w).isOut = false := by
      cases hio : (cfg4.win w).isOut with
      | false => rfl
      | true => exact absurd rfl (hb w hio)
    exact (W9_arr m ρ c w).trans (((dat4 (V8 m ρ) c).arrAt_in w hin _).trans (A_eq4 (V8 m ρ) c w))
  · exact W9_of_ne m ρ c b fun w e => h ⟨w, e⟩

/-- Unfolds a boundary after a stretch of host operations and evaluates the stretch at one buffer. -/
macro "host_read" : tactic =>
  `(tactic| (dsimp only [W1, W3, W5, W7, W0, hostOps0, hostOps1, hostOps2, hostOps3]; after_results))

/-! ## After the first stretch: the prepared index vectors, factor column and bias rows -/
theorem at1_v1 (c : Dev nD) : W1 m ρ c (Proc.devRef .tc main_v1) = (srcOf (m ((c : Thread nD τ).loc main_arg1))) := by
  host_read <;> rfl
theorem at1_v3 (c : Dev nD) : W1 m ρ c (Proc.devRef .tc main_v3) = (dstOf (m ((c : Thread nD τ).loc main_arg1))) := by
  host_read <;> rfl
theorem at1_v11 (c : Dev nD) : W1 m ρ c (Proc.devRef .tc main_v11) = (dcolOf (dstOf (m ((c : Thread nD τ).loc main_arg1)))) := by
  host_read <;> rfl
theorem at1_v12 (c : Dev nD) : W1 m ρ c (Proc.devRef .tc main_v12) = (row128 (m ((c : Thread nD τ).loc main_arg4))) := by
  host_read <;> rfl
theorem at1_v13 (c : Dev nD) : W1 m ρ c (Proc.devRef .tc main_v13) = (row128 (m ((c : Thread nD τ).loc main_arg6))) := by
  host_read <;> rfl
theorem at1_v14 (c : Dev nD) : W1 m ρ c (Proc.devRef .tc main_v14) = (row128 (m ((c : Thread nD τ).loc main_arg8))) := by
  host_read <;> rfl
theorem at1_v15 (c : Dev nD) : W1 m ρ c (Proc.devRef .tc main_v15) = (row128 (m ((c : Thread nD τ).loc main_arg10))) := by
  host_read <;> rfl
theorem at1_v16 (c : Dev nD) : W1 m ρ c (Proc.devRef .tc main_v16) = (row32 (m ((c : Thread nD τ).loc main_arg12))) := by
  host_read <;> rfl
theorem at1_arg0 (c : Dev nD) : W1 m ρ c (Proc.devRef .tc main_arg0) = (m ((c : Thread nD τ).loc main_arg0)) := by
  host_read <;> rfl
theorem at1_arg3 (c : Dev nD) : W1 m ρ c (Proc.devRef .tc main_arg3) = (m ((c : Thread nD τ).loc main_arg3)) := by
  host_read <;> rfl
theorem at1_arg5 (c : Dev nD) : W1 m ρ c (Proc.devRef .tc main_arg5) = (m ((c : Thread nD τ).loc main_arg5)) := by
  host_read <;> rfl
theorem at1_arg7 (c : Dev nD) : W1 m ρ c (Proc.devRef .tc main_arg7) = (m ((c : Thread nD τ).loc main_arg7)) := by
  host_read <;> rfl
theorem at1_arg9 (c : Dev nD) : W1 m ρ c (Proc.devRef .tc main_arg9) = (m ((c : Thread nD τ).loc main_arg9)) := by
  host_read <;> rfl
theorem at1_arg11 (c : Dev nD) : W1 m ρ c (Proc.devRef .tc main_arg11) = (m ((c : Thread nD τ).loc main_arg11)) := by
  host_read <;> rfl

/-! ## After the first region: the first layer's scaled features -/
theorem at2_v17 (c : Dev nD) : W2 m ρ c (Proc.devRef .tc main_v17) = (hp0 m c) := by
  refine (W2_arr m ρ c 3).trans ((Reg0.final (V1 m ρ) c).trans ?_)
  rw [show V1 m ρ c main_arg0 = (m ((c : Thread nD τ).loc main_arg0)) from at1_arg0 m ρ c,
    show V1 m ρ c main_arg3 = (m ((c : Thread nD τ).loc main_arg3)) from at1_arg3 m ρ c,
    show V1 m ρ c main_v11 = (dcolOf (dstOf (m ((c : Thread nD τ).loc main_arg1)))) from at1_v11 m ρ c]
  rfl
theorem at2_v1 (c : Dev nD) : W2 m ρ c (Proc.devRef .tc main_v1) = (srcOf (m ((c : Thread nD τ).loc main_arg1))) :=
  (keep0 m ρ c main_v1 (by decide)).trans (at1_v1 m ρ c)
theorem at2_v3 (c : Dev nD) : W2 m ρ c (Proc.devRef .tc main_v3) = (dstOf (m ((c : Thread nD τ).loc main_arg1))) :=
  (keep0 m ρ c main_v3 (by decide)).trans (at1_v3 m ρ c)
theorem at2_v11 (c : Dev nD) : W2 m ρ c (Proc.devRef .tc main_v11) = (dcolOf (dstOf (m ((c : Thread nD τ).loc main_arg1)))) :=
  (keep0 m ρ c main_v11 (by decide)).trans (at1_v11 m ρ c)
theorem at2_v12 (c : Dev nD) : W2 m ρ c (Proc.devRef .tc main_v12) = (row128 (m ((c : Thread nD τ).loc main_arg4))) :=
  (keep0 m ρ c main_v12 (by decide)).trans (at1_v12 m ρ c)
theorem at2_v13 (c : Dev nD) : W2 m ρ c (Proc.devRef .tc main_v13) = (row128 (m ((c : Thread nD τ).loc main_arg6))) :=
  (keep0 m ρ c main_v13 (by decide)).trans (at1_v13 m ρ c)
theorem at2_v14 (c : Dev nD) : W2 m ρ c (Proc.devRef .tc main_v14) = (row128 (m ((c : Thread nD τ).loc main_arg8))) :=
  (keep0 m ρ c main_v14 (by decide)).trans (at1_v14 m ρ c)
theorem at2_v15 (c : Dev nD) : W2 m ρ c (Proc.devRef .tc main_v15) = (row128 (m ((c : Thread nD τ).loc main_arg10))) :=
  (keep0 m ρ c main_v15 (by decide)).trans (at1_v15 m ρ c)
theorem at2_v16 (c : Dev nD) : W2 m ρ c (Proc.devRef .tc main_v16) = (row32 (m ((c : Thread nD τ).loc main_arg12))) :=
  (keep0 m ρ c main_v16 (by decide)).trans (at1_v16 m ρ c)
theorem at2_arg5 (c : Dev nD) : W2 m ρ c (Proc.devRef .tc main_arg5) = (m ((c : Thread nD τ).loc main_arg5)) :=
  (keep0 m ρ c main_arg5 (by decide)).trans (at1_arg5 m ρ c)
theorem at2_arg7 (c : Dev nD) : W2 m ρ c (Proc.devRef .tc main_arg7) = (m ((c : Thread nD τ).loc main_arg7)) :=
  (keep0 m ρ c main_arg7 (by decide)).trans (at1_arg7 m ρ c)
theorem at2_arg9 (c : Dev nD) : W2 m ρ c (Proc.devRef .tc main_arg9) = (m ((c : Thread nD τ).loc main_arg9)) :=
  (keep0 m ρ c main_arg9 (by decide)).trans (at1_arg9 m ρ c)
theorem at2_arg11 (c : Dev nD) : W2 m ρ c (Proc.devRef .tc main_arg11) = (m ((c : Thread nD τ).loc main_arg11)) :=
  (keep0 m ρ c main_arg11 (by decide)).trans (at1_arg11 m ρ c)

/-! ## After the second stretch: their aggregation over the edges -/
theorem at3_v28 (c : Dev nD) : W3 m ρ c (Proc.devRef .tc main_v28) = (aggOf (srcOf (m ((c : Thread nD τ).loc main_arg1))) (dstOf (m ((c : Thread nD τ).loc main_arg1))) (hp0 m c)) := by
  host_read
  rw [at2_v1 m ρ c, at2_v3 m ρ c, at2_v17 m ρ c]
  rfl
theorem at3_v1 (c : Dev nD) : W3 m ρ c (Proc.devRef .tc main_v1) = (srcOf (m ((c : Thread nD τ).loc main_arg1))) := by
  host_read
  exact at2_v1 m ρ c
theorem at3_v3 (c : Dev nD) : W3 m ρ c (Proc.devRef .tc main_v3) = (dstOf (m ((c : Thread nD τ).loc main_arg1))) := by
  host_read
  exact at2_v3 m ρ c
theorem at3_v11 (c : Dev nD) : W3 m ρ c (Proc.devRef .tc main_v11) = (dcolOf (dstOf (m ((c : Thread nD τ).loc main_arg1)))) := by
  host_read
  exact at2_v11 m ρ c
theorem at3_v12 (c : Dev nD) : W3 m ρ c (Proc.devRef .tc main_v12) = (row128 (m ((c : Thread nD τ).loc main_arg4))) := by
  host_read
  exact at2_v12 m ρ c
theorem at3_v13 (c : Dev nD) : W3 m ρ c (Proc.devRef .tc main_v13) = (row128 (m ((c : Thread nD τ).loc main_arg6))) := by
  host_read
  exact at2_v13 m ρ c
theorem at3_v14 (c : Dev nD) : W3 m ρ c (Proc.devRef .tc main_v14) = (row128 (m ((c : Thread nD τ).loc main_arg8))) := by
  host_read
  exact at2_v14 m ρ c
theorem at3_v15 (c : Dev nD) : W3 m ρ c (Proc.devRef .tc main_v15) = (row128 (m ((c : Thread nD τ).loc main_arg10))) := by
  host_read
  exact at2_v15 m ρ c
theorem at3_v16 (c : Dev nD) : W3 m ρ c (Proc.devRef .tc main_v16) = (row32 (m ((c : Thread nD τ).loc main_arg12))) := by
  host_read
  exact at2_v16 m ρ c
theorem at3_v17 (c : Dev nD) : W3 m ρ c (Proc.devRef .tc main_v17) = (hp0 m c) := by
  host_read
  exact at2_v17 m ρ c
theorem at3_arg5 (c : Dev nD) : W3 m ρ c (Proc.devRef .tc main_arg5) = (m ((c : Thread nD τ).loc main_arg5)) := by
  host_read
  exact at2_arg5 m ρ c
theorem at3_arg7 (c : Dev nD) : W3 m ρ c (Proc.devRef .tc main_arg7) = (m ((c : Thread nD τ).loc main_arg7)) := by
  host_read
  exact at2_arg7 m ρ c
theorem at3_arg9 (c : Dev nD) : W3 m ρ c (Proc.devRef .tc main_arg9) = (m ((c : Thread nD τ).loc main_arg9)) := by
  host_read
  exact at2_arg9 m ρ c
theorem at3_arg11 (c : Dev nD) : W3 m ρ c (Proc.devRef .tc main_arg11) = (m ((c : Thread nD τ).loc main_arg11)) := by
  host_read
  exact at2_arg11 m ρ c

/-! ## After the second region: the second layer's scaled features -/
theorem at4_v29 (c : Dev nD) : W4 m ρ c (Proc.devRef .tc main_v29) = (hp1 m c) := by
  refine (W4_arr m ρ c 5).trans ((Reg1.final (V3 m ρ) c).trans ?_)
  rw [show V3 m ρ c main_v11 = (dcolOf (dstOf (m ((c : Thread nD τ).loc main_arg1)))) from at3_v11 m ρ c,
    show V3 m ρ c main_v28 = (aggOf (srcOf (m ((c : Thread nD τ).loc main_arg1))) (dstOf (m ((c : Thread nD τ).loc main_arg1))) (hp0 m c)) from at3_v28 m ρ c,
    show V3 m ρ c main_v17 = (hp0 m c) from at3_v17 m ρ c,
    show V3 m ρ c main_v12 = (row128 (m ((c : Thread nD τ).loc main_arg4))) from at3_v12 m ρ c,
    show V3 m ρ c main_arg5 = (m ((c : Thread nD τ).loc main_arg5)) from at3_arg5 m ρ c]
  rfl
theorem at4_v1 (c : Dev nD) : W4 m ρ c (Proc.devRef .tc main_v1) = (srcOf (m ((c : Thread nD τ).loc main_arg1))) :=
  (keep1 m ρ c main_v1 (by decide)).trans (at3_v1 m ρ c)
theorem at4_v3 (c : Dev nD) : W4 m ρ c (Proc.devRef .tc main_v3) = (dstOf (m ((c : Thread nD τ).loc main_arg1))) :=
  (keep1 m ρ c main_v3 (by decide)).trans (at3_v3 m ρ c)
theorem at4_v11 (c : Dev nD) : W4 m ρ c (Proc.devRef .tc main_v11) = (dcolOf (dstOf (m ((c : Thread nD τ).loc main_arg1)))) :=
  (keep1 m ρ c main_v11 (by decide)).trans (at3_v11 m ρ c)
theorem at4_v13 (c : Dev nD) : W4 m ρ c (Proc.devRef .tc main_v13) = (row128 (m ((c : Thread nD τ).loc main_arg6))) :=
  (keep1 m ρ c main_v13 (by decide)).trans (at3_v13 m ρ c)
theorem at4_v14 (c : Dev nD) : W4 m ρ c (Proc.devRef .tc main_v14) = (row128 (m ((c : Thread nD τ).loc main_arg8))) :=
  (keep1 m ρ c main_v14 (by decide)).trans (at3_v14 m ρ c)
theorem at4_v15 (c : Dev nD) : W4 m ρ c (Proc.devRef .tc main_v15) = (row128 (m ((c : Thread nD τ).loc main_arg10))) :=
  (keep1 m ρ c main_v15 (by decide)).trans (at3_v15 m ρ c)
theorem at4_v16 (c : Dev nD) : W4 m ρ c (Proc.devRef .tc main_v16) = (row32 (m ((c : Thread nD τ).loc main_arg12))) :=
  (keep1 m ρ c main_v16 (by decide)).trans (at3_v16 m ρ c)
theorem at4_arg7 (c : Dev nD) : W4 m ρ c (Proc.devRef .tc main_arg7) = (m ((c : Thread nD τ).loc main_arg7)) :=
  (keep1 m ρ c main_arg7 (by decide)).trans (at3_arg7 m ρ c)
theorem at4_arg9 (c : Dev nD) : W4 m ρ c (Proc.devRef .tc main_arg9) = (m ((c : Thread nD τ).loc main_arg9)) :=
  (keep1 m ρ c main_arg9 (by decide)).trans (at3_arg9 m ρ c)
theorem at4_arg11 (c : Dev nD) : W4 m ρ c (Proc.devRef .tc main_arg11) = (m ((c : Thread nD τ).loc main_arg11)) :=
  (keep1 m ρ c main_arg11 (by decide)).trans (at3_arg11 m ρ c)

/-! ## After the third stretch: their aggregation over the edges -/
theorem at5_v40 (c : Dev nD) : W5 m ρ c (Proc.devRef .tc main_v40) = (aggOf (srcOf (m ((c : Thread nD τ).loc main_arg1))) (dstOf (m ((c : Thread nD τ).loc main_arg1))) (hp1 m c)) := by
  host_read
  rw [at4_v1 m ρ c, at4_v3 m ρ c, at4_v29 m ρ c]
  rfl
theorem at5_v1 (c : Dev nD) : W5 m ρ c (Proc.devRef .tc main_v1) = (srcOf (m ((c : Thread nD τ).loc main_arg1))) := by
  host_read
  exact at4_v1 m ρ c
theorem at5_v3 (c : Dev nD) : W5 m ρ c (Proc.devRef .tc main_v3) = (dstOf (m ((c : Thread nD τ).loc main_arg1))) := by
  host_read
  exact at4_v3 m ρ c
theorem at5_v11 (c : Dev nD) : W5 m ρ c (Proc.devRef .tc main_v11) = (dcolOf (dstOf (m ((c : Thread nD τ).loc main_arg1)))) := by
  host_read
  exact at4_v11 m ρ c
theorem at5_v13 (c : Dev nD) : W5 m ρ c (Proc.devRef .tc main_v13) = (row128 (m ((c : Thread nD τ).loc main_arg6))) := by
  host_read
  exact at4_v13 m ρ c
theorem at5_v14 (c : Dev nD) : W5 m ρ c (Proc.devRef .tc main_v14) = (row128 (m ((c : Thread nD τ).loc main_arg8))) := by
  host_read
  exact at4_v14 m ρ c
theorem at5_v15 (c : Dev nD) : W5 m ρ c (Proc.devRef .tc main_v15) = (row128 (m ((c : Thread nD τ).loc main_arg10))) := by
  host_read
  exact at4_v15 m ρ c
theorem at5_v16 (c : Dev nD) : W5 m ρ c (Proc.devRef .tc main_v16) = (row32 (m ((c : Thread nD τ).loc main_arg12))) := by
  host_read
  exact at4_v16 m ρ c
theorem at5_v29 (c : Dev nD) : W5 m ρ c (Proc.devRef .tc main_v29) = (hp1 m c) := by
  host_read
  exact at4_v29 m ρ c
theorem at5_arg7 (c : Dev nD) : W5 m ρ c (Proc.devRef .tc main_arg7) = (m ((c : Thread nD τ).loc main_arg7)) := by
  host_read
  exact at4_arg7 m ρ c
theorem at5_arg9 (c : Dev nD) : W5 m ρ c (Proc.devRef .tc main_arg9) = (m ((c : Thread nD τ).loc main_arg9)) := by
  host_read
  exact at4_arg9 m ρ c
theorem at5_arg11 (c : Dev nD) : W5 m ρ c (Proc.devRef .tc main_arg11) = (m ((c : Thread nD τ).loc main_arg11)) := by
  host_read
  exact at4_arg11 m ρ c

/-! ## After the third region: the third layer's scaled features -/
theorem at6_v41 (c : Dev nD) : W6 m ρ c (Proc.devRef .tc main_v41) = (hp2 m c) := by
  refine (W6_arr m ρ c 5).trans ((Reg2.final (V5 m ρ) c).trans ?_)
  rw [show V5 m ρ c main_v11 = (dcolOf (dstOf (m ((c : Thread nD τ).loc main_arg1)))) from at5_v11 m ρ c,
    show V5 m ρ c main_v40 = (aggOf (srcOf (m ((c : Thread nD τ).loc main_arg1))) (dstOf (m ((c : Thread nD τ).loc main_arg1))) (hp1 m c)) from at5_v40 m ρ c,
    show V5 m ρ c main_v29 = (hp1 m c) from at5_v29 m ρ c,
    show V5 m ρ c main_v13 = (row128 (m ((c : Thread nD τ).loc main_arg6))) from at5_v13 m ρ c,
    show V5 m ρ c main_arg7 = (m ((c : Thread nD τ).loc main_arg7)) from at5_arg7 m ρ c]
  rfl
theorem at6_v1 (c : Dev nD) : W6 m ρ c (Proc.devRef .tc main_v1) = (srcOf (m ((c : Thread nD τ).loc main_arg1))) :=
  (keep2 m ρ c main_v1 (by decide)).trans (at5_v1 m ρ c)
theorem at6_v3 (c : Dev nD) : W6 m ρ c (Proc.devRef .tc main_v3) = (dstOf (m ((c : Thread nD τ).loc main_arg1))) :=
  (keep2 m ρ c main_v3 (by decide)).trans (at5_v3 m ρ c)
theorem at6_v11 (c : Dev nD) : W6 m ρ c (Proc.devRef .tc main_v11) = (dcolOf (dstOf (m ((c : Thread nD τ).loc main_arg1)))) :=
  (keep2 m ρ c main_v11 (by decide)).trans (at5_v11 m ρ c)
theorem at6_v14 (c : Dev nD) : W6 m ρ c (Proc.devRef .tc main_v14) = (row128 (m ((c : Thread nD τ).loc main_arg8))) :=
  (keep2 m ρ c main_v14 (by decide)).trans (at5_v14 m ρ c)
theorem at6_v15 (c : Dev nD) : W6 m ρ c (Proc.devRef .tc main_v15) = (row128 (m ((c : Thread nD τ).loc main_arg10))) :=
  (keep2 m ρ c main_v15 (by decide)).trans (at5_v15 m ρ c)
theorem at6_v16 (c : Dev nD) : W6 m ρ c (Proc.devRef .tc main_v16) = (row32 (m ((c : Thread nD τ).loc main_arg12))) :=
  (keep2 m ρ c main_v16 (by decide)).trans (at5_v16 m ρ c)
theorem at6_arg9 (c : Dev nD) : W6 m ρ c (Proc.devRef .tc main_arg9) = (m ((c : Thread nD τ).loc main_arg9)) :=
  (keep2 m ρ c main_arg9 (by decide)).trans (at5_arg9 m ρ c)
theorem at6_arg11 (c : Dev nD) : W6 m ρ c (Proc.devRef .tc main_arg11) = (m ((c : Thread nD τ).loc main_arg11)) :=
  (keep2 m ρ c main_arg11 (by decide)).trans (at5_arg11 m ρ c)

/-! ## After the fourth stretch: their aggregation over the edges -/
theorem at7_v52 (c : Dev nD) : W7 m ρ c (Proc.devRef .tc main_v52) = (aggOf (srcOf (m ((c : Thread nD τ).loc main_arg1))) (dstOf (m ((c : Thread nD τ).loc main_arg1))) (hp2 m c)) := by
  host_read
  rw [at6_v1 m ρ c, at6_v3 m ρ c, at6_v41 m ρ c]
  rfl
theorem at7_v11 (c : Dev nD) : W7 m ρ c (Proc.devRef .tc main_v11) = (dcolOf (dstOf (m ((c : Thread nD τ).loc main_arg1)))) := by
  host_read
  exact at6_v11 m ρ c
theorem at7_v14 (c : Dev nD) : W7 m ρ c (Proc.devRef .tc main_v14) = (row128 (m ((c : Thread nD τ).loc main_arg8))) := by
  host_read
  exact at6_v14 m ρ c
theorem at7_v15 (c : Dev nD) : W7 m ρ c (Proc.devRef .tc main_v15) = (row128 (m ((c : Thread nD τ).loc main_arg10))) := by
  host_read
  exact at6_v15 m ρ c
theorem at7_v16 (c : Dev nD) : W7 m ρ c (Proc.devRef .tc main_v16) = (row32 (m ((c : Thread nD τ).loc main_arg12))) := by
  host_read
  exact at6_v16 m ρ c
theorem at7_v41 (c : Dev nD) : W7 m ρ c (Proc.devRef .tc main_v41) = (hp2 m c) := by
  host_read
  exact at6_v41 m ρ c
theorem at7_arg9 (c : Dev nD) : W7 m ρ c (Proc.devRef .tc main_arg9) = (m ((c : Thread nD τ).loc main_arg9)) := by
  host_read
  exact at6_arg9 m ρ c
theorem at7_arg11 (c : Dev nD) : W7 m ρ c (Proc.devRef .tc main_arg11) = (m ((c : Thread nD τ).loc main_arg11)) := by
  host_read
  exact at6_arg11 m ρ c

/-! ## After the fourth region: the classifier's hidden features -/
theorem at8_v53 (c : Dev nD) : W8 m ρ c (Proc.devRef .tc main_v53) = (hm m c) := by
  refine (W8_arr m ρ c 6).trans ((Reg3.final (V7 m ρ) c).trans ?_)
  rw [show V7 m ρ c main_v11 = (dcolOf (dstOf (m ((c : Thread nD τ).loc main_arg1)))) from at7_v11 m ρ c,
    show V7 m ρ c main_v52 = (aggOf (srcOf (m ((c : Thread nD τ).loc main_arg1))) (dstOf (m ((c : Thread nD τ).loc main_arg1))) (hp2 m c)) from at7_v52 m ρ c,
    show V7 m ρ c main_v41 = (hp2 m c) from at7_v41 m ρ c,
    show V7 m ρ c main_v14 = (row128 (m ((c : Thread nD τ).loc main_arg8))) from at7_v14 m ρ c,
    show V7 m ρ c main_arg9 = (m ((c : Thread nD τ).loc main_arg9)) from at7_arg9 m ρ c,
    show V7 m ρ c main_v15 = (row128 (m ((c : Thread nD τ).loc main_arg10))) from at7_v15 m ρ c]
  rfl
theorem at8_v16 (c : Dev nD) : W8 m ρ c (Proc.devRef .tc main_v16) = (row32 (m ((c : Thread nD τ).loc main_arg12))) :=
  (keep3 m ρ c main_v16 (by decide)).trans (at7_v16 m ρ c)
theorem at8_arg11 (c : Dev nD) : W8 m ρ c (Proc.devRef .tc main_arg11) = (m ((c : Thread nD τ).loc main_arg11)) :=
  (keep3 m ρ c main_arg11 (by decide)).trans (at7_arg11 m ρ c)

/-! ## After the fifth region: the result -/
theorem result (c : Dev nD) : W9 m ρ c (Proc.devRef .tc main_v54) = res m c := by
  refine (W9_arr m ρ c 3).trans ((Reg4.final (V8 m ρ) c).trans ?_)
  rw [show V8 m ρ c main_v53 = (hm m c) from at8_v53 m ρ c,
    show V8 m ρ c main_arg11 = (m ((c : Thread nD τ).loc main_arg11)) from at8_arg11 m ρ c,
    show V8 m ρ c main_v16 = (row32 (m ((c : Thread nD τ).loc main_arg12))) from at8_v16 m ρ c]
  rfl

end Cert.KernelIdeal.KVal

end
-- ==== Proof.RVal.lean ====
/-
  The idealized reference as three normalised graph-convolution layers and a two-layer classifier.

  One layer of the reference, for node features X, weights W and bias b: with H = X · W and d the per-node factor
  (the reciprocal square root of one plus the number of edges arriving at the node), every edge e sends
  H(src e, ·) · (d(src e) · d(dst e)) to its destination, each node adds H(n, ·) · (d(n) · d(n)) and the bias, and the
  sum is rectified. The index vectors are the two rows of the edge list; where a vector is indexed by them a negative
  index is wrapped round once by the node count (and the gather then clamps into range), while the sums over the
  edges take the destination as it is. The generated stages of the program are this layer three times over — the factor
  is computed afresh in each, from the same edge list — and then the classifier: a rectified dense layer, a dense
  layer, and 1 / (1 + exp(−x)).
-/
import proofs.«167632_j10067403342134_2_alg».proof.Proof.Gen.ReferenceIdeal.Read

set_option maxRecDepth 65536

noncomputable section

namespace Cert.ReferenceIdeal.RVal

open Cert.ReferenceIdeal Cert.ReferenceIdeal.Gen Cert.ReferenceIdeal.Read
open Idealize.ShloMosaic Idealize.ShloMosaic.TcCoe Idealize.ShloMosaic.ValueIdx

/-- The edges' source nodes: row 0 of the edge list. -/
def srcOf (ei : IVec S2x1600000 32) : IVec S1600000 32 :=
  shapeCast _ (extractStridedSlice S1x1600000 ![0, 0] ei slices_S2x1600000_S1x1600000_0_0) shapeCasts_S1x1600000_S1600000

/-- The edges' destination nodes: row 1 of the edge list. -/
def dstOf (ei : IVec S2x1600000 32) : IVec S1600000 32 :=
  shapeCast _ (extractStridedSlice S1x1600000 ![1, 0] ei slices_S2x1600000_S1x1600000_1_0) shapeCasts_S1x1600000_S1600000

/-- An index vector as an index column, as it is. -/
def rawCol (v : IVec S1600000 32) : IVec S1600000x1 32 :=
  broadcastInDim S1600000x1 ![0] bcast_S1600000_S1600000x1_0 v

/-- An index vector as an index column, a negative index wrapped round by the node count. -/
def wrapCol (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- The per-node factor: the reciprocal square root of one plus the number of arriving edges. -/
def dinvOf (dst : IVec S1600000 32) : FVec Ideal S100000 .f32 :=
  Host.rsqrt (addf (Host.scatterAdd scatter_S100000_S1600000x1_S1600000_n_0_0_1
      (broadcastInDim S100000 ![] bcast_S_S100000 (constant (F := Ideal) S_ .f32 0x00000000#32)) (rawCol dst)
      (broadcastInDim S1600000 ![] bcast_S_S1600000 (constant (F := Ideal) S_ .f32 0x3F800000#32)))
    (broadcastInDim S100000 ![] bcast_S_S100000 (constant (F := Ideal) S_ .f32 0x3F800000#32)))

/-- The messages of the edges: row e is H(src e, ·) · (d(src e) · d(dst e)). -/
def messages (h : FVec Ideal S100000x128 .f32) (src dst : IVec S1600000 32) : FVec Ideal S1600000x128 .f32 :=
  mulf (Host.gather gather_S100000x128_S1600000x1_S1600000x128_1_0_n_n_0_1_1128 h (wrapCol src))
    (broadcastInDim S1600000x128 ![0, 1] bcast_S1600000x1_S1600000x128_0_1
      (broadcastInDim S1600000x1 ![0] bcast_S1600000_S1600000x1_0
        (mulf (Host.gather gather_S100000_S1600000x1_S1600000_n_0_n_n_0_1_1 (dinvOf dst) (wrapCol src))
          (Host.gather gather_S100000_S1600000x1_S1600000_n_0_n_n_0_1_1 (dinvOf dst) (wrapCol dst)))))

/-- One layer. -/
def layer (x : FVec Ideal S100000x128 .f32) (ei : IVec S2x1600000 32) (w : FVec Ideal S128x128 .f32) (b : FVec Ideal S128 .f32) :
    FVec Ideal S100000x128 .f32 :=
  maximumf
    (addf
      (addf
        (Host.scatterAdd scatter_S100000x128_S1600000x1_S1600000x128_1_0_0_1
          (broadcastInDim S100000x128 ![] bcast_S_S100000x128 (constant (F := Ideal) S_ .f32 0x00000000#32)) (rawCol (dstOf ei))
          (messages (Host.dotGeneral (φ₁ := .f32) (φ₂ := .f32) dot_S100000x128_S128x128_S100000x128_1_0_0_1_n_n none x w) (srcOf ei) (dstOf ei)))
        (mulf (Host.dotGeneral (φ₁ := .f32) (φ₂ := .f32) dot_S100000x128_S128x128_S100000x128_1_0_0_1_n_n none x w)
          (broadcastInDim S100000x128 ![0, 1] bcast_S100000x1_S100000x128_0_1
            (broadcastInDim S100000x1 ![0] bcast_S100000_S100000x1_0 (mulf (dinvOf (dstOf ei)) (dinvOf (dstOf ei)))))))
      (broadcastInDim S100000x128 ![0, 1] bcast_S1x128_S100000x128_0_1 (broadcastInDim S1x128 ![1] bcast_S128_S1x128_1 b)))
    (broadcastInDim S100000x128 ![] bcast_S_S100000x128 (constant (F := Ideal) S_ .f32 0x00000000#32))

/-- The classifier on the last layer's output. -/
def classifier (h : FVec Ideal S100000x128 .f32) (wc1 : FVec Ideal S128x128 .f32) (bc1 : FVec Ideal S128 .f32)
    (wc2 : FVec Ideal S128x32 .f32) (bc2 : FVec Ideal S32 .f32) : FVec Ideal S100000x32 .f32 :=
  Host.divf (broadcastInDim S100000x32 ![] bcast_S_S100000x32 (constant (F := Ideal) S_ .f32 0x3F800000#32))
    (addf (broadcastInDim S100000x32 ![] bcast_S_S100000x32 (constant (F := Ideal) S_ .f32 0x3F800000#32))
      (Host.exp (Host.negf
        (addf
          (Host.dotGeneral (φ₁ := .f32) (φ₂ := .f32) dot_S100000x128_S128x32_S100000x32_1_0_0_1_n_n none
            (maximumf
              (addf (Host.dotGeneral (φ₁ := .f32) (φ₂ := .f32) dot_S100000x128_S128x128_S100000x128_1_0_0_1_n_n none h wc1)
                (broadcastInDim S100000x128 ![0, 1] bcast_S1x128_S100000x128_0_1 (broadcastInDim S1x128 ![1] bcast_S128_S1x128_1 bc1)))
              (broadcastInDim S100000x128 ![] bcast_S_S100000x128 (constant (F := Ideal) S_ .f32 0x00000000#32)))
            wc2)
          (broadcastInDim S100000x32 ![0, 1] bcast_S1x32_S100000x32_0_1 (broadcastInDim S1x32 ![1] bcast_S32_S1x32_1 bc2))))))

variable (x0 : FVec Ideal S100000x128 .f32) (x1 : IVec S2x1600000 32)
  (x3 : FVec Ideal S128x128 .f32) (x4 : FVec Ideal S128 .f32) (x5 : FVec Ideal S128x128 .f32) (x6 : FVec Ideal S128 .f32)
  (x7 : FVec Ideal S128x128 .f32) (x8 : FVec Ideal S128 .f32) (x9 : FVec Ideal S128x128 .f32) (x10 : FVec Ideal S128 .f32)
  (x11 : FVec Ideal S128x32 .f32) (x12 : FVec Ideal S32 .f32)

/-- The first layer's stage is the layer of the input features. -/
theorem stage_layer1 : val_main_v48 (F := Ideal) x0 x1 x3 x4 = layer x0 x1 x3 x4 := rfl

/-- The second layer's stage is the layer of the first layer's output. -/
theorem stage_layer2 : val_main_v93 (F := Ideal) x0 x1 x3 x4 x5 x6 = layer (val_main_v48 (F := Ideal) x0 x1 x3 x4) x1 x5 x6 := rfl

/-- The third layer's stage is the layer of the second layer's output. -/
theorem stage_layer3 : val_main_v138 (F := Ideal) x0 x1 x3 x4 x5 x6 x7 x8
    = layer (val_main_v93 (F := Ideal) x0 x1 x3 x4 x5 x6) x1 x7 x8 := rfl

/-- The result's stage is the classifier of the third layer's output. -/
theorem stage_classifier : val_main_v153 (F := Ideal) x0 x1 x3 x4 x5 x6 x7 x8 x9 x10 x11 x12
    = classifier (val_main_v138 (F := Ideal) x0 x1 x3 x4 x5 x6 x7 x8) x9 x10 x11 x12 := rfl

/-- The reference's result: the classifier of three layers. -/
theorem result_eq : val_main_v153 (F := Ideal) x0 x1 x3 x4 x5 x6 x7 x8 x9 x10 x11 x12
    = classifier (layer (layer (layer x0 x1 x3 x4) x1 x5 x6) x1 x7 x8) x9 x10 x11 x12 := by
  rw [stage_classifier, stage_layer3, stage_layer2, stage_layer1]

end Cert.ReferenceIdeal.RVal

end
-- ==== Proof.LibERealScale.lean ====
/-
  Scaling by a nonnegative finite factor on the extended reals, and two quantities that are such factors.

  On the extended reals multiplication does not distribute over addition in general (the sum of +∞ and −∞ is −∞, and
  a negative or infinite factor turns that around), but it does for a factor `x` with `0 ≤ x` and `x ≠ ⊤`: a
  nonnegative real. So a finite sum times such a factor is the sum of the products, whatever the summands are.
  The reciprocal square root of a positive extended real is such a factor (a positive real, or `0` at `+∞`), and so
  is a value that is either that or `0`. A quotient by a nonzero divisor is the product with the divisor's reciprocal.
-/
import Idealize.ShloMosaic.PureOps.Ideal
import Idealize.ShloMosaic.PureOps.Ideal.Laws

namespace Cert.LibERealScale

open Idealize.ShloMosaic

/-- A finite sum times a nonnegative finite factor is the sum of the products. -/
theorem sum_mul_of_nonneg_ne_top {ι : Type} (s : Finset ι) (f : ι → EReal) {x : EReal} (h0 : 0 ≤ x) (ht : x ≠ ⊤) :
    (∑ j ∈ s, f j) * x = ∑ j ∈ s, f j * x := by
  classical
  induction s using Finset.induction_on with
  | empty => rw [Finset.sum_empty, Finset.sum_empty, zero_mul]
  | insert a s ha ih =>
    rw [Finset.sum_insert ha, Finset.sum_insert ha, EReal.right_distrib_of_nonneg_of_ne_top h0 ht, ih]

/-- The f32 word of `1.0` denotes `1`. -/
theorem ofBits_one_f32 : Ideal.ofBits .f32 0x3F800000#32 = 1 := by
  simp [Ideal.ofBits, Ideal.ieee]
  rw [← EReal.coe_mul, ← EReal.coe_one]
  exact congrArg _ (by norm_num)

/-- The larger of anything and `1` is positive. -/
theorem max_one_pos (d : EReal) : 0 < max d (Ideal.ofBits .f32 0x3F800000#32) := by
  rw [ofBits_one_f32]
  exact lt_of_lt_of_le zero_lt_one (le_max_right d 1)

/-- The reciprocal square root of a positive extended real is a nonnegative finite number. -/
theorem rsqrt_nonneg_ne_top {y : EReal} (hy : 0 < y) : 0 ≤ Ideal.rsqrt y ∧ Ideal.rsqrt y ≠ ⊤ := by
  induction y using EReal.rec with
  | bot => exact absurd hy (not_lt.mpr bot_le)
  | top => rw [Ideal.rsqrt_top]; exact ⟨le_rfl, EReal.zero_ne_top⟩
  | coe r =>
    have hr : 0 < r := by exact_mod_cast hy
    rw [Ideal.rsqrt_coe, if_neg (not_lt.mpr hr.le), if_neg hr.ne']
    exact ⟨by exact_mod_cast inv_nonneg.mpr (Real.sqrt_nonneg r), EReal.coe_ne_top _⟩

/-- A value that is the reciprocal square root of `max d 1` where a flag is set and `0` elsewhere is a
    nonnegative finite number, whatever `d` and the flag are. -/
theorem select_rsqrt_nonneg_ne_top (b : BitVec 1) (d : EReal) :
    0 ≤ Scalar.select b (Ideal.rsqrt (max d (Ideal.ofBits .f32 0x3F800000#32))) (Ideal.ofBits .f32 0x00000000#32)
      ∧ Scalar.select b (Ideal.rsqrt (max d (Ideal.ofBits .f32 0x3F800000#32))) (Ideal.ofBits .f32 0x00000000#32) ≠ ⊤ := by
  unfold Scalar.select
  split
  · exact rsqrt_nonneg_ne_top (max_one_pos d)
  · rw [Ideal.ofBits_zero_f32]; exact ⟨le_rfl, EReal.zero_ne_top⟩

/-- A quotient by a nonzero divisor is the product with the divisor's reciprocal `1 / y`. -/
theorem div_eq_mul_one_div (x : EReal) {y : EReal} (hy : y ≠ 0) : Ideal.div x y = x * Ideal.div 1 y := by
  unfold Ideal.div
  rw [if_neg hy, if_neg hy, one_mul]

end Cert.LibERealScale
-- ==== Proof.LibRowIndexOps.lean ====
/-
  Rows picked and rows accumulated by an integer index column, read at coordinates.

  `x[idx]` for a matrix `x : [N, C]` (or a vector `x : [N]`) and an index column `idx : [E, 1]` is a gather whose
  result row `e` is row `g(e)` of `x`, where `g(e)` is the start index `idx[e, 0]` read signed and clamped into
  `[0, N − 1]`. The matrix and the vector forms clamp the same number the same way, so a vector gathered beside a
  matrix reads the same row.

  A row scatter of updates `u : [E, C]` into an operand `[N, C]` by the index column adds update row `e` onto operand
  row `idx[e, 0]`, read signed and NOT clamped: an update that lands on operand element `i` has its raw index equal
  to `i`'s row. Only that direction is stated: it is what a sum over the landing updates needs.
-/
import Idealize.ShloMosaic.PureOps.ShapeOps
import Idealize.ShloMosaic.PureOps.Dims
import Idealize.ShloMosaic.Lib.ValueIdx

noncomputable section

namespace Cert.LibRowIndexOps

open Idealize.ShloMosaic Idealize.ShloMosaic.ValueIdx

variable {α : Type}

/-! ## The matrix gather -/

/-- The dimension numbers of `x[idx]` for `x : [N, C]`, `idx : [E, 1]`, result `[E, C]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a start index names: read signed, clamped into `[0, N − 1]`. -/
def pick {w : Nat} (N : Nat) (hN : 0 < N) (b : BitVec w) : Fin N := ⟨min b.toInt.toNat (N - 1), by omega⟩

/-- Result element `(e, c)` of the matrix gather is `x` at row `pick idx[e, 0]`, column `c`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (pick N hN (idx (ix2 e 0))) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    unfold GatherDims.start
    rw [dif_neg (fun h : (1 : Fin 2) ∈ (rowGatherDims N E C wf).startIndexMap => absurd (congrArg Fin.val (List.mem_singleton.mp h)) Nat.one_ne_zero)]
    simp only [Nat.add_zero, Nat.zero_add]
    rfl

/-! ## The vector gather -/

/-- The dimension numbers of `x[idx]` for `x : [N]`, `idx : [E, 1]`, result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result element `e` of the vector gather is `x` at `pick idx[e, 0]`: the row the matrix gather reads. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (pick N hN (idx (ix2 e 0)))) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## Indices that are already in range -/

/-- A start index whose signed value is `k < N` picks row `k`: the clamp does nothing. -/
theorem pick_of_toInt {w N : Nat} (hN : 0 < N) (x : BitVec w) (k : Fin N) (h : x.toInt = (k.val : Int)) :
    pick N hN x = k := by
  refine Fin.ext ?_
  show min x.toInt.toNat (N - 1) = k.val
  rw [h, Int.toNat_natCast]
  have := k.isLt
  omega

/-- The wrap-around of negative indices (`x < 0 ? x + n : x`) keeps an index that is not negative. -/
theorem wrapNeg_of_nonneg {w : Nat} (x n : BitVec w) (hx : 0 ≤ x.toInt) :
    Scalar.select (IntOp.cmpi .slt x 0#w) (IntOp.addi x n) x = x := by
  have hs : x.slt 0#w = false := by
    rw [BitVec.slt_eq_decide, BitVec.toInt_zero]
    exact decide_eq_false (not_lt.mpr hx)
  unfold IntOp.cmpi Scalar.select
  simp only [hs]
  rw [if_neg (by decide)]

/-! ## The row scatter -/

/-- The dimension numbers of a scatter of update rows `[E, C]` into `[N, C]` by an index column `[E, 1]`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An update element that lands on operand element `i` has its raw index, read signed, equal to `i`'s row. -/
theorem rowScatter_lands {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : (⟨2, ![N, C]⟩ : Shape).Idx)
    (h : (rowScatterDims N E C wf).resultIdx? j idx = some i) :
    (idx (ix2 (j 0) 0)).toInt = ((i 0).val : Int) := by
  unfold ScatterDims.resultIdx? at h
  split at h
  · rename_i hr
    have hi := congrArg (fun f => (f (0 : Fin 2)).val) (Option.some.inj h)
    have h0 := (hr (0 : Fin 2)).1
    have hw : (rowScatterDims N E C wf).window j (0 : Fin 2) = 0 := by
      unfold ScatterDims.window
      rw [dif_neg (fun h : (0 : Fin 2) ∈ (rowScatterDims N E C wf).sKept => by
        have h2 := (List.mem_filter.mp h).2
        simp at h2)]
    have hs : (rowScatterDims N E C wf).start j idx (0 : Fin 2) = (idx (ix2 (j 0) 0)).toInt := by
      unfold ScatterDims.start
      rw [dif_pos (show (0 : Fin 2) ∈ (rowScatterDims N E C wf).scatterDimsToOperandDims from List.mem_singleton.mpr rfl)]
      have hsi : (rowScatterDims N E C wf).siIdx j ⟨List.idxOf (0 : Fin 2) (rowScatterDims N E C wf).scatterDimsToOperandDims,
          List.idxOf_lt_length_iff.2 (List.mem_singleton.mpr rfl)⟩ = ix2 (j 0) 0 := by
        funext b; refine Fin.ext ?_
        match b with
        | ⟨0, _⟩ => rfl
        | ⟨1, _⟩ => rfl
      rw [hsi]
      rfl
    rw [hw, hs] at h0
    simp only [hw, hs, Nat.cast_zero, add_zero] at hi
    omega
  · exact absurd h (by simp)

end Cert.LibRowIndexOps

end
-- ==== Proof.LibScatterFactor.lean ====
/-
  A factor common to the updates that land on one element comes out of a row scatter-add.

  At the ideal values a scatter-add into a zero operand holds, at element `i`, the sum of the update elements that
  land on `i`. If `r` is a nonnegative finite number and every update that lands on `i` is `r` times the corresponding
  element of another update array, then the scattered sum of the one is `r` times the scattered sum of the other —
  whatever the summands are (infinite ones included), because multiplication by such an `r` distributes over the
  extended reals' addition. Which updates land on `i` is the same for both arrays: it depends on the indices only.
-/
import proofs.«167632_j10067403342134_2_alg».proof.Proof.LibERealScale
import proofs.«167632_j10067403342134_2_alg».proof.Proof.LibRowIndexOps

noncomputable section

namespace Cert.LibScatterFactor

open Idealize.ShloMosaic Idealize.ShloMosaic.ValueIdx Cert.LibRowIndexOps Cert.LibERealScale

/-- The scattered sum of `u` at `i`, times `r`, is the scattered sum of `u'` at `i`, when `u' = u · r` on the updates that
    land on `i`, both operands are `0` at `i`, and `r` is a nonnegative finite number. -/
theorem rowScatter_factor {N E C w : Nat}
    (wf : ScatterDims.WF ⟨2, ![N, C]⟩ ⟨2, ![E, 1]⟩ ⟨2, ![E, C]⟩ [1] [0] [0] 1)
    (z z' : (⟨2, ![N, C]⟩ : Shape).Idx → EReal) (idx : IVec ⟨2, ![E, 1]⟩ w)
    (u u' : (⟨2, ![E, C]⟩ : Shape).Idx → EReal) (i : (⟨2, ![N, C]⟩ : Shape).Idx) (r : EReal)
    (hz : z i = 0) (hz' : z' i = 0) (h0 : 0 ≤ r) (ht : r ≠ ⊤)
    (h : ∀ j, (rowScatterDims N E C wf).resultIdx? j idx = some i → u j * r = u' j) :
    Ideal.hostScatterAdd (rowScatterDims N E C wf) z idx u i * r
      = Ideal.hostScatterAdd (rowScatterDims N E C wf) z' idx u' i := by
  unfold Ideal.hostScatterAdd
  rw [hz, hz', zero_add, zero_add, sum_mul_of_nonneg_ne_top _ _ h0 ht]
  exact Finset.sum_congr rfl fun j hj => h j (Finset.mem_filter.mp hj).2

/-- The same for any scatter-add's dimension numbers, stated for the host operation itself: which updates land on
    `i` depends on the indices only, so a nonnegative finite factor common to the landing updates comes out of the sum. -/
theorem hostScatterAdd_factor {s si su : Shape} {w : Nat} (d : ScatterDims s si su)
    (z z' : FVec Ideal s .f32) (idx : IVec si w) (u u' : FVec Ideal su .f32) (i : s.Idx) (r : EReal)
    (hz : z i = 0) (hz' : z' i = 0) (h0 : 0 ≤ r) (ht : r ≠ ⊤)
    (h : ∀ j, d.resultIdx? j idx = some i → u j * r = u' j) :
    Host.scatterAdd d z idx u i * r = Host.scatterAdd d z' idx u' i := by
  show Ideal.hostScatterAdd d z idx u i * r = Ideal.hostScatterAdd d z' idx u' i
  unfold Ideal.hostScatterAdd
  rw [hz, hz', zero_add, zero_add, sum_mul_of_nonneg_ne_top _ _ h0 ht]
  exact Finset.sum_congr rfl fun j hj => h j (Finset.mem_filter.mp hj).2

end Cert.LibScatterFactor

end
-- ==== Proof.LibPlainDot.lean ====
/-
  The host's plain matrix product and a matrix transpose, read at an index, at the ideal values.
  A `dot_general` with the dimension numbers of an ordinary product — an [A, K] matrix times a [K, B] matrix,
  contracting the left operand's columns with the right operand's rows, no batch axis — is, at (p, e), the sum over k
  of L(p, k) · R(k, e), a sum indexed by `Fin K` with both operands read at indices written by coordinates. The
  transpose of an [A, B] matrix read at (b, a) is the matrix at (a, b).
-/
import Idealize.ShloMosaic.PureOps.Ideal.Laws
import Idealize.ShloMosaic.Lib.ValueIdx
import Idealize.ShloMosaic.Lib.Pipeline.Value
import proofs.«167632_j10067403342134_2_alg».proof.Proof.LibPlainMatmul

noncomputable section

namespace Cert.LibPlainDot

open Idealize.ShloMosaic Idealize.ShloMosaic.ValueIdx

/-- A plain [A, K] × [K, B] `dot_general` on the host, read at (p, e): Σ_k L(p, k) · R(k, e). -/
theorem dotGeneral_plain_apply (A K B : Nat) {φ₁ φ₂ : FTy} (prec : Option ContractPrecision) (sched : HostSchedule)
    (lhs : FVec Ideal ⟨2, ![A, K]⟩ φ₁) (rhs : FVec Ideal ⟨2, ![K, B]⟩ φ₂) (p : Fin A) (e : Fin B) :
    FloatOps.dotGeneral (DotDims.plain A K B) prec sched lhs rhs (ix2 p e) = ∑ k : Fin K, lhs (ix2 p k) * rhs (ix2 k e) := by
  rw [Ideal.dotGeneral_apply, ← Equiv.sum_comp (contrEquiv1 (DotDims.plain A K B) K rfl rfl).symm]
  refine Finset.sum_congr rfl fun k _ => ?_
  rw [plain_lhsIdx, plain_rhsIdx]

/-- The transpose of an [A, B] matrix, read at (b, a), is the matrix at (a, b). -/
theorem transpose_swap_apply {α : Type} (A B : Nat) (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun d => match d with
    | ⟨0, _⟩ => rfl
    | ⟨1, _⟩ => rfl)

end Cert.LibPlainDot

end
-- ==== Proof.LibDenseLayer.lean ====
/-
  The layers of a graph network, read one entry at a time, at the ideal values.

  A layer takes the node features H (one row per node) and the aggregated neighbour features A (one row per node) and
  returns, at node p and output channel e,

      act ( Σ_k H(p, k) · Ws(k, e)  +  Σ_k A(p, k) · Wn(k, e)  +  b(e) ),

  `pre` being the argument of the activation. The first layer has no neighbour term: `lin`. Both programs compute
  exactly this, entry by entry: a kernel's body on a tile of rows (two matrix products into zero accumulators of the
  tile's rows after a change of float format, which changes nothing here, and the bias row spread over the tile's rows)
  and the host's operations on all rows at once (two `dot_general`s and the bias broadcast in two steps). The
  rectifier is a maximum with zero in both spellings. The logistic function is by definition 1 / (1 + exp (-x)) on the
  extended reals, which is the expression the host spells out. Last, the mean over the neighbours: the sum S(p, ·)
  times the reciprocal 1 / max(d(p), 1) is the quotient S(p, ·) / max(d(p), 1), because max(d(p), 1) ≥ 1 is not zero
  (at a zero divisor the two differ; nowhere else, the infinities included).
-/
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost
import Idealize.ShloMosaic.Lib.KernelVsHost
import proofs.«167632_j10067403342134_2_alg».proof.Proof.LibPlainMatmul
import proofs.«167632_j10067403342134_2_alg».proof.Proof.LibPlainDot
import proofs.«167632_j10067403342134_2_alg».proof.Proof.LibRowBroadcast

noncomputable section

namespace Cert.Gcn

open Idealize.ShloMosaic Idealize.ShloMosaic.ValueIdx

/-- The argument of a layer's activation at node `p`, channel `e`: the node's own row through the self weights, its
    aggregated neighbours' row through the neighbour weights, and the bias. -/
def pre {A K B : ℕ} (h a : (⟨2, ![A, K]⟩ : Shape).Idx → EReal) (ws wn : (⟨2, ![K, B]⟩ : Shape).Idx → EReal)
    (b : Fin B → EReal) (p : Fin A) (e : Fin B) : EReal :=
  (∑ k : Fin K, h (ix2 p k) * ws (ix2 k e) + ∑ k : Fin K, a (ix2 p k) * wn (ix2 k e)) + b e

/-- The first, purely linear layer at node `p`, channel `e`. -/
def lin {A K B : ℕ} (x : (⟨2, ![A, K]⟩ : Shape).Idx → EReal) (w : (⟨2, ![K, B]⟩ : Shape).Idx → EReal)
    (b : Fin B → EReal) (p : Fin A) (e : Fin B) : EReal :=
  (∑ k : Fin K, x (ix2 p k) * w (ix2 k e)) + b e

/-! ## A kernel's body on a tile of rows -/

/-- The linear kernel's body: one product of the tile with the weights, plus the bias row on every row. -/
theorem kernel_lin_apply {T K B : ℕ} (D : DotDims ⟨2, ![T, K]⟩ ⟨2, ![K, B]⟩ ⟨2, ![T, B]⟩) (hD : D = DotDims.plain T K B)
    (x : FVec Ideal ⟨2, ![T, K]⟩ .f32) (w : FVec Ideal ⟨2, ![K, B]⟩ .f32) (bv : FVec Ideal ⟨2, ![1, B]⟩ .f32)
    (hbv : (⟨2, ![1, B]⟩ : Shape).ShapeCasts ⟨2, ![1, B]⟩) (hbc : (⟨2, ![1, B]⟩ : Shape).Broadcasts ⟨2, ![T, B]⟩)
    (hlt : FTy.bf16.bits < FTy.f32.bits) (p : Fin T) (e : Fin B) :
    addf (matmul D none (truncf .bf16 x hlt) (truncf .bf16 w hlt) (constant ⟨2, ![T, B]⟩ .f32 0x00000000#32))
        (broadcastTo ⟨2, ![T, B]⟩ (shapeCast ⟨2, ![1, B]⟩ bv hbv) hbc) (ix2 p e)
      = lin x w (fun e => bv (ix2 0 e)) p e := by
  subst hD
  have hm : matmul (DotDims.plain T K B) none (truncf .bf16 x hlt) (truncf .bf16 w hlt) (constant ⟨2, ![T, B]⟩ .f32 0x00000000#32) (ix2 p e)
      = ∑ k : Fin K, x (ix2 p k) * w (ix2 k e) := matmul_plain_zero_apply T K B none (truncf .bf16 x hlt) (truncf .bf16 w hlt) p e
  rw [addf_apply, shapeCast_self, LibRowBroadcast.broadcastTo_1b_ab_apply bv hbc p e 0, hm]
  rfl

/-- A dense kernel's body before its activation: the tile of own features and the tile of aggregated features, each
    through its weights, summed, plus the bias row on every row. -/
theorem kernel_pre_apply {T K B : ℕ} (D : DotDims ⟨2, ![T, K]⟩ ⟨2, ![K, B]⟩ ⟨2, ![T, B]⟩) (hD : D = DotDims.plain T K B)
    (x a : FVec Ideal ⟨2, ![T, K]⟩ .f32) (ws wn : FVec Ideal ⟨2, ![K, B]⟩ .f32) (bv : FVec Ideal ⟨2, ![1, B]⟩ .f32)
    (hx : (⟨2, ![T, K]⟩ : Shape).ShapeCasts ⟨2, ![T, K]⟩) (hbv : (⟨2, ![1, B]⟩ : Shape).ShapeCasts ⟨2, ![1, B]⟩)
    (hbc : (⟨2, ![1, B]⟩ : Shape).Broadcasts ⟨2, ![T, B]⟩) (hlt : FTy.bf16.bits < FTy.f32.bits) (p : Fin T) (e : Fin B) :
    addf (addf (matmul D none (truncf .bf16 (shapeCast ⟨2, ![T, K]⟩ x hx) hlt) (truncf .bf16 ws hlt) (constant ⟨2, ![T, B]⟩ .f32 0x00000000#32))
          (matmul D none (truncf .bf16 (shapeCast ⟨2, ![T, K]⟩ a hx) hlt) (truncf .bf16 wn hlt) (constant ⟨2, ![T, B]⟩ .f32 0x00000000#32)))
        (broadcastTo ⟨2, ![T, B]⟩ (shapeCast ⟨2, ![1, B]⟩ bv hbv) hbc) (ix2 p e)
      = pre x a ws wn (fun e => bv (ix2 0 e)) p e := by
  subst hD
  have hs : matmul (DotDims.plain T K B) none (truncf .bf16 x hlt) (truncf .bf16 ws hlt) (constant ⟨2, ![T, B]⟩ .f32 0x00000000#32) (ix2 p e)
      = ∑ k : Fin K, x (ix2 p k) * ws (ix2 k e) := matmul_plain_zero_apply T K B none (truncf .bf16 x hlt) (truncf .bf16 ws hlt) p e
  have hn : matmul (DotDims.plain T K B) none (truncf .bf16 a hlt) (truncf .bf16 wn hlt) (constant ⟨2, ![T, B]⟩ .f32 0x00000000#32) (ix2 p e)
      = ∑ k : Fin K, a (ix2 p k) * wn (ix2 k e) := matmul_plain_zero_apply T K B none (truncf .bf16 a hlt) (truncf .bf16 wn hlt) p e
  rw [addf_apply, addf_apply, shapeCast_self x, shapeCast_self a, shapeCast_self bv,
    LibRowBroadcast.broadcastTo_1b_ab_apply bv hbc p e 0, hs, hn]
  rfl

/-- A kernel's maximum with the splat of the f32 zero is the rectifier. -/
theorem kernel_relu_apply {s : Shape} (v : FVec Ideal s .f32) (i : s.Idx) :
    maximumf v (broadcast s (Scalar.ofBits .f32 0x00000000#32)) i = max (v i) 0 := by
  rw [maximumf_apply, broadcast_apply]
  exact congrArg (max (v i)) Ideal.ofBits_zero_f32

/-- A kernel's logistic is the logistic function of the entry. -/
theorem kernel_logistic_apply {s : Shape} (v : FVec Ideal s .f32) (i : s.Idx) : logistic v i = Ideal.logistic (v i) := rfl

/-! ## The host's operations on all rows -/

/-- A bias vector broadcast to one row and then down all rows reads, at (p, e), the vector's entry e. -/
theorem host_bias_apply {A B : ℕ} {α : Type} (b : (⟨1, ![B]⟩ : Shape).Idx → α)
    (h1 : (⟨1, ![B]⟩ : Shape).BroadcastsInDim ⟨2, ![1, B]⟩ ![1]) (h2 : (⟨2, ![1, B]⟩ : Shape).BroadcastsInDim ⟨2, ![A, B]⟩ ![0, 1])
    (p : Fin A) (e : Fin B) :
    broadcastInDim ⟨2, ![A, B]⟩ ![0, 1] h2 (broadcastInDim ⟨2, ![1, B]⟩ ![1] h1 b) (ix2 p e) = b (ix1 e) := by
  rw [broadcastInDim_oneRow_apply h2 _ p e]
  refine broadcastInDim_apply ![1] h1 b (ix2 (0 : Fin 1) e) (ix1 e) fun a => ?_
  match a with
  | ⟨0, _⟩ =>
    show e.val = if B = 1 then 0 else e.val
    split
    · have := e.isLt; omega
    · rfl

/-- The host's linear layer. -/
theorem host_lin_apply {A K B : ℕ} (D : DotDims ⟨2, ![A, K]⟩ ⟨2, ![K, B]⟩ ⟨2, ![A, B]⟩) (hD : D = DotDims.plain A K B)
    (x : FVec Ideal ⟨2, ![A, K]⟩ .f32) (w : FVec Ideal ⟨2, ![K, B]⟩ .f32) (b : FVec Ideal ⟨1, ![B]⟩ .f32)
    (h1 : (⟨1, ![B]⟩ : Shape).BroadcastsInDim ⟨2, ![1, B]⟩ ![1]) (h2 : (⟨2, ![1, B]⟩ : Shape).BroadcastsInDim ⟨2, ![A, B]⟩ ![0, 1])
    (p : Fin A) (e : Fin B) :
    addf (Host.dotGeneral D none x w) (broadcastInDim ⟨2, ![A, B]⟩ ![0, 1] h2 (broadcastInDim ⟨2, ![1, B]⟩ ![1] h1 b)) (ix2 p e)
      = lin x w (fun e => b (ix1 e)) p e := by
  subst hD
  rw [addf_apply, host_bias_apply]
  simp only [Host.dotGeneral]
  rw [LibPlainDot.dotGeneral_plain_apply]
  rfl

/-- The host's dense layer before its activation. -/
theorem host_pre_apply {A K B : ℕ} (D : DotDims ⟨2, ![A, K]⟩ ⟨2, ![K, B]⟩ ⟨2, ![A, B]⟩) (hD : D = DotDims.plain A K B)
    (h a : FVec Ideal ⟨2, ![A, K]⟩ .f32) (ws wn : FVec Ideal ⟨2, ![K, B]⟩ .f32) (b : FVec Ideal ⟨1, ![B]⟩ .f32)
    (h1 : (⟨1, ![B]⟩ : Shape).BroadcastsInDim ⟨2, ![1, B]⟩ ![1]) (h2 : (⟨2, ![1, B]⟩ : Shape).BroadcastsInDim ⟨2, ![A, B]⟩ ![0, 1])
    (p : Fin A) (e : Fin B) :
    addf (addf (Host.dotGeneral D none h ws) (Host.dotGeneral D none a wn))
        (broadcastInDim ⟨2, ![A, B]⟩ ![0, 1] h2 (broadcastInDim ⟨2, ![1, B]⟩ ![1] h1 b)) (ix2 p e)
      = pre h a ws wn (fun e => b (ix1 e)) p e := by
  subst hD
  rw [addf_apply, addf_apply, host_bias_apply]
  simp only [Host.dotGeneral]
  rw [LibPlainDot.dotGeneral_plain_apply, LibPlainDot.dotGeneral_plain_apply]
  rfl

/-- The host's maximum with the broadcast f32 zero is the rectifier. -/
theorem host_relu_apply {s : Shape} (v : FVec Ideal s .f32) (hb : (⟨0, ![]⟩ : Shape).BroadcastsInDim s ![]) (i : s.Idx) :
    maximumf v (broadcastInDim s ![] hb (constant (F := Ideal) ⟨0, ![]⟩ .f32 0x00000000#32)) i = max (v i) 0 := by
  rw [maximumf_apply, broadcastInDim_scalar_apply]
  exact congrArg (max (v i)) Ideal.ofBits_zero_f32

/-- The host's spelling of the logistic function, 1 / (1 + exp (-x)) with the f32 one broadcast, is the logistic
    function of the entry: that expression is its definition on the extended reals. -/
theorem host_logistic_apply {s : Shape} (v : FVec Ideal s .f32) (hb : (⟨0, ![]⟩ : Shape).BroadcastsInDim s ![]) (i : s.Idx) :
    Host.divf (broadcastInDim s ![] hb (constant (F := Ideal) ⟨0, ![]⟩ .f32 0x3F800000#32))
        (addf (broadcastInDim s ![] hb (constant (F := Ideal) ⟨0, ![]⟩ .f32 0x3F800000#32)) (Host.exp (Host.negf v))) i
      = Ideal.logistic (v i) := by
  rw [hostDivf_apply, addf_apply, broadcastInDim_scalar_apply]
  show Ideal.div (Ideal.ofBits .f32 0x3F800000#32) (Ideal.ofBits .f32 0x3F800000#32 + Ideal.exp (-(v i))) = Ideal.logistic (v i)
  rw [Ideal.ofBits_one_f32]
  rfl

/-! ## The mean over the neighbours -/

/-- A vector with one entry per node, made a column and spread over the channels, reads the node's entry. -/
theorem column_spread_apply {N C : ℕ} {α : Type} (y : (⟨1, ![N]⟩ : Shape).Idx → α)
    (h1 : (⟨1, ![N]⟩ : Shape).BroadcastsInDim ⟨2, ![N, 1]⟩ ![0]) (h2 : (⟨2, ![N, 1]⟩ : Shape).BroadcastsInDim ⟨2, ![N, C]⟩ ![0, 1])
    (p : Fin N) (e : Fin C) :
    broadcastInDim ⟨2, ![N, C]⟩ ![0, 1] h2 (broadcastInDim ⟨2, ![N, 1]⟩ ![0] h1 y) (ix2 p e) = y (ix1 p) := by
  have e2 := broadcastInDim_apply ![0, 1] h2 (broadcastInDim ⟨2, ![N, 1]⟩ ![0] h1 y) (ix2 p e) (ix2 p (0 : Fin 1)) (fun a => by
    match a with
    | ⟨0, _⟩ =>
      show p.val = if N = 1 then 0 else p.val
      split
      · have := p.isLt; omega
      · rfl
    | ⟨1, _⟩ =>
      show (0 : ℕ) = if (1 : ℕ) = 1 then 0 else e.val
      rw [if_pos rfl])
  have e1 := broadcastInDim_apply ![0] h1 y (ix2 p (0 : Fin 1)) (ix1 p) (fun a => by
    match a with
    | ⟨0, _⟩ =>
      show p.val = if N = 1 then 0 else p.val
      split
      · have := p.isLt; omega
      · rfl)
  exact e2.trans e1

/-- THE LAW THAT JOINS THE TWO PROGRAMS. The neighbour sums times the spread reciprocal of max(degree, 1) are the
    neighbour sums divided by the spread max(degree, 1): the divisor is at least one, so it is not zero, and off a zero
    divisor a product with the reciprocal is the quotient on all the extended reals. -/
theorem sum_times_reciprocal_eq_quotient {N C : ℕ} (S : FVec Ideal ⟨2, ![N, C]⟩ .f32) (d o₁ o₂ : FVec Ideal ⟨1, ![N]⟩ .f32)
    (ho₁ : ∀ i, o₁ i = 1) (ho₂ : ∀ i, o₂ i = 1)
    (h1 : (⟨1, ![N]⟩ : Shape).BroadcastsInDim ⟨2, ![N, 1]⟩ ![0]) (h2 : (⟨2, ![N, 1]⟩ : Shape).BroadcastsInDim ⟨2, ![N, C]⟩ ![0, 1]) :
    mulf S (broadcastInDim ⟨2, ![N, C]⟩ ![0, 1] h2 (broadcastInDim ⟨2, ![N, 1]⟩ ![0] h1 (Host.divf o₂ (maximumf d o₁))))
      = Host.divf S (broadcastInDim ⟨2, ![N, C]⟩ ![0, 1] h2 (broadcastInDim ⟨2, ![N, 1]⟩ ![0] h1 (maximumf d o₁))) := by
  funext i
  obtain ⟨p, e, rfl⟩ : ∃ (p : Fin N) (e : Fin C), i = ix2 p e := ⟨i 0, i 1, eq_ix2 i⟩
  rw [mulf_apply, hostDivf_apply, column_spread_apply, column_spread_apply, hostDivf_apply, maximumf_apply, ho₁, ho₂]
  have hpos : (0 : EReal) < max (d (ix1 p)) 1 := lt_of_lt_of_le zero_lt_one (le_max_right _ _)
  exact Ideal.mul_one_div (ne_of_gt hpos)

end Cert.Gcn

end
-- ==== Proof.Law.lean ====
/-
  The law that joins the two programs: a normalised graph-convolution layer with the destination's factor taken out of
  the sum over the edges.

  With H = X · W and d(n) the per-node factor, the reference's layer is, at node n and channel c,

      max( Σ_{e → n} H(s_e, c) · (d(s_e) · d(t_e))  +  H(n, c) · (d(n) · d(n))  +  b(c), 0 ),

  the sum over the edges e that land on n, s_e and t_e the rows the source and the destination index of e pick. The
  kernel scales H by the source's factor first, h'(n, c) = H(n, c) · d(n), adds up h'(s_e, c) over the same edges, and
  finishes with max( d(n) · (Σ_{e → n} h'(s_e, c) + h'(n, c)) + b(c), 0 ). An edge that lands on n has destination
  index n, which is in range, so the row its destination picks is n itself: t_e = n, and d(t_e) = d(n) is common to
  the summands. The factor d(n) is the reciprocal square root of a count plus one, a nonnegative real number, and
  multiplication by such a number distributes over sums of extended reals whatever the summands are. So the two
  layers agree entry by entry, for all feature and weight values, infinite ones included. The classifier after the
  three layers is the same function in both spellings.
-/
import proofs.«167632_j10067403342134_2_alg».proof.Proof.RVal
import proofs.«167632_j10067403342134_2_alg».proof.Proof.KDefs
import proofs.«167632_j10067403342134_2_alg».proof.Proof.LibScatterFactor
import proofs.«167632_j10067403342134_2_alg».proof.Proof.LibDenseLayer
import proofs.«167632_j10067403342134_2_alg».proof.Proof.LibKeepdims

set_option maxRecDepth 65536

noncomputable section

namespace Cert.Law

open Idealize.ShloMosaic Idealize.ShloMosaic.ValueIdx Cert.GcnTile Cert.LibRowIndexOps Cert.LibERealScale Cert.LibScatterFactor
open Cert.ReferenceIdeal.RVal

/-! ## On the extended reals -/

/-- One entry of a layer: with `r` a nonnegative finite factor and `S · r = S'`, the kernel's finish is the reference's. -/
theorem finish_entry {r S S' H b : EReal} (h0 : 0 ≤ r) (ht : r ≠ ⊤) (hS : S * r = S') :
    max (r * (S + H * r) + b) 0 = max (S' + H * (r * r) + b) 0 := by
  rw [mul_comm r (S + H * r), EReal.right_distrib_of_nonneg_of_ne_top h0 ht, hS, mul_assoc]

/-- A scatter-add of nonnegative updates into a nonnegative operand is nonnegative. -/
theorem hostScatterAdd_nonneg {s si su : Shape} {w : Nat} (d : ScatterDims s si su) (z : FVec Ideal s .f32) (idx : IVec si w)
    (u : FVec Ideal su .f32) (i : s.Idx) (hz : 0 ≤ z i) (hu : ∀ j, 0 ≤ u j) : 0 ≤ Host.scatterAdd d z idx u i := by
  show 0 ≤ Ideal.hostScatterAdd d z idx u i
  unfold Ideal.hostScatterAdd
  exact add_nonneg hz (Finset.sum_nonneg fun j _ => hu j)

/-- A broadcast float constant reads its word's value everywhere. -/
theorem bcast_const_apply {T : Shape} (h : (⟨0, ![]⟩ : Shape).BroadcastsInDim T ![]) (w : BitVec 32) (j : T.Idx) :
    broadcastInDim T ![] h (constant (F := Ideal) ⟨0, ![]⟩ .f32 w) j = Ideal.ofBits .f32 w := by
  rw [broadcastInDim_scalar_apply]; rfl

/-- The host's reciprocal square root at an index. -/
theorem hostRsqrt_apply {s : Shape} (v : FVec Ideal s .f32) (i : s.Idx) : Host.rsqrt v i = Ideal.rsqrt (v i) := rfl

/-- The host's plain product at (p, e). -/
theorem host_dot_apply {A K B : ℕ} (D : DotDims ⟨2, ![A, K]⟩ ⟨2, ![K, B]⟩ ⟨2, ![A, B]⟩) (hD : D = DotDims.plain A K B)
    (x : FVec Ideal ⟨2, ![A, K]⟩ .f32) (w : FVec Ideal ⟨2, ![K, B]⟩ .f32) (p : Fin A) (e : Fin B) :
    Host.dotGeneral D none x w (ix2 p e) = ∑ k : Fin K, x (ix2 p k) * w (ix2 k e) := by
  subst hD
  simp only [Host.dotGeneral]
  rw [LibPlainDot.dotGeneral_plain_apply]

/-! ## The index columns and the factor -/

/-- An index vector as a column, at row `e`. -/
theorem rawCol_apply (v : IVec Cert.ReferenceIdeal.S1600000 32) (e : Fin 1600000) : rawCol v (ix2 e (0 : Fin 1)) = v (ix1 e) := by
  unfold rawCol
  refine broadcastInDim_apply ![0] _ v (ix2 e (0 : Fin 1)) (ix1 e) fun a => ?_
  match a with
  | ⟨0, _⟩ => show e.val = if (1600000 : ℕ) = 1 then 0 else e.val; rw [if_neg (by decide)]

/-- An index vector as a column with the wrap-around of negative indices, at row `e`. -/
theorem wrapCol_apply (v : IVec Cert.ReferenceIdeal.S1600000 32) (e : Fin 1600000) :
    wrapCol v (ix2 e (0 : Fin 1))
      = Scalar.select (IntOp.cmpi .slt (v (ix1 e)) 0#32) (IntOp.addi (v (ix1 e)) 100000#32) (v (ix1 e)) := by
  unfold wrapCol
  refine (broadcastInDim_apply ![0] _ _ (ix2 e (0 : Fin 1)) (ix1 e) fun a => ?_).trans ?_
  · match a with
    | ⟨0, _⟩ => show e.val = if (1600000 : ℕ) = 1 then 0 else e.val; rw [if_neg (by decide)]
  · rw [select_apply]
    have h0 : broadcastInDim Cert.ReferenceIdeal.S1600000 ![] Cert.ReferenceIdeal.Gen.bcast_S_S1600000 (constantI Cert.ReferenceIdeal.S_ 32 0#32) (ix1 e) = 0#32 := by
      rw [broadcastInDim_scalar_apply]; rfl
    have h1 : broadcastInDim Cert.ReferenceIdeal.S1600000 ![] Cert.ReferenceIdeal.Gen.bcast_S_S1600000 (constantI Cert.ReferenceIdeal.S_ 32 100000#32) (ix1 e) = 100000#32 := by
      rw [broadcastInDim_scalar_apply]; rfl
    show Scalar.select (IntOp.cmpi .slt (v (ix1 e)) (broadcastInDim Cert.ReferenceIdeal.S1600000 ![] _ (constantI Cert.ReferenceIdeal.S_ 32 0#32) (ix1 e)))
        (IntOp.addi (v (ix1 e)) (broadcastInDim Cert.ReferenceIdeal.S1600000 ![] _ (constantI Cert.ReferenceIdeal.S_ 32 100000#32) (ix1 e))) (v (ix1 e)) = _
    rw [h0, h1]

/-- The per-node factor is a nonnegative finite number: the reciprocal square root of a count plus one. -/
theorem dinv_nonneg_ne_top (dst : IVec Cert.ReferenceIdeal.S1600000 32) (n : Fin 100000) :
    0 ≤ dinvOf dst (ix1 n) ∧ dinvOf dst (ix1 n) ≠ ⊤ := by
  unfold dinvOf
  rw [hostRsqrt_apply, addf_apply]
  refine rsqrt_nonneg_ne_top ?_
  rw [bcast_const_apply, ofBits_one_f32]
  refine lt_of_lt_of_le zero_lt_one (le_add_of_nonneg_left (hostScatterAdd_nonneg _ _ _ _ _ ?_ fun j => ?_))
  · exact le_of_eq (by rw [bcast_const_apply, Ideal.ofBits_zero_f32])
  · rw [bcast_const_apply, ofBits_one_f32]; exact zero_le_one

/-! ## The kernel's stages are the reference's -/

theorem srcOf_eq (ei : IVec Cert.ReferenceIdeal.S2x1600000 32) : Cert.KernelIdeal.KDefs.srcOf ei = srcOf ei := rfl
theorem dstOf_eq (ei : IVec Cert.ReferenceIdeal.S2x1600000 32) : Cert.KernelIdeal.KDefs.dstOf ei = dstOf ei := rfl
theorem dstCol_eq (v : IVec Cert.ReferenceIdeal.S1600000 32) : Cert.KernelIdeal.KDefs.dstCol v = rawCol v := rfl
theorem srcCol_eq (v : IVec Cert.ReferenceIdeal.S1600000 32) : Cert.KernelIdeal.KDefs.srcCol v = wrapCol v := rfl
theorem dinvOf_eq (v : IVec Cert.ReferenceIdeal.S1600000 32) : Cert.KernelIdeal.KDefs.dinvOf v = dinvOf v := rfl

/-- The factor column at node `n`. -/
theorem dcol_apply (dst : IVec Cert.ReferenceIdeal.S1600000 32) (n : Fin 100000) (u : Fin 1) :
    Cert.KernelIdeal.KDefs.dcolOf dst (ix2 n u) = dinvOf dst (ix1 n) := by
  unfold Cert.KernelIdeal.KDefs.dcolOf
  rw [dinvOf_eq]
  exact LibKeepdims.shapeCast_a_a1_apply _ _ n u

/-- A bias row at channel `c`. -/
theorem row128_apply (b : FVec Ideal Cert.ReferenceIdeal.S128 .f32) (c : Fin 128) : Cert.KernelIdeal.KDefs.row128 b (ix2 0 c) = b (ix1 c) := by
  unfold Cert.KernelIdeal.KDefs.row128
  refine shapeCast_apply b _ (ix2 0 c) (ix1 c) ?_
  rw [Shape.rowMajor_val_one, Shape.rowMajor_val_two]
  show c.val = 0 * 128 + c.val
  omega

theorem row32_apply (b : FVec Ideal Cert.ReferenceIdeal.S32 .f32) (c : Fin 32) : Cert.KernelIdeal.KDefs.row32 b (ix2 0 c) = b (ix1 c) := by
  unfold Cert.KernelIdeal.KDefs.row32
  refine shapeCast_apply b _ (ix2 0 c) (ix1 c) ?_
  rw [Shape.rowMajor_val_one, Shape.rowMajor_val_two]
  show c.val = 0 * 32 + c.val
  omega

/-! ## One layer -/

/-- The row an edge's destination index picks is the node the edge lands on. -/
theorem pick_dst_of_lands (dst : IVec Cert.ReferenceIdeal.S1600000 32) (e : Fin 1600000) (n : Fin 100000)
    (h : (rawCol dst (ix2 e (0 : Fin 1))).toInt = (n.val : Int)) :
    pick 100000 (by decide) (wrapCol dst (ix2 e (0 : Fin 1))) = n := by
  rw [rawCol_apply] at h
  rw [wrapCol_apply, wrapNeg_of_nonneg (dst (ix1 e)) 100000#32 (by rw [h]; exact Int.natCast_nonneg _)]
  exact pick_of_toInt (by decide) _ n h

/-- The reference's messages at edge `e`, channel `c`. -/
theorem messages_apply (h : FVec Ideal Cert.ReferenceIdeal.S100000x128 .f32) (src dst : IVec Cert.ReferenceIdeal.S1600000 32) (e : Fin 1600000) (c : Fin 128) :
    messages h src dst (ix2 e c)
      = h (ix2 (pick 100000 (by decide) (wrapCol src (ix2 e (0 : Fin 1)))) c)
        * (dinvOf dst (ix1 (pick 100000 (by decide) (wrapCol src (ix2 e (0 : Fin 1)))))
          * dinvOf dst (ix1 (pick 100000 (by decide) (wrapCol dst (ix2 e (0 : Fin 1)))))) := by
  unfold messages
  rw [mulf_apply, Cert.Gcn.column_spread_apply, mulf_apply]
  refine congrArg₂ (· * ·) ?_ (congrArg₂ (· * ·) ?_ ?_)
  · exact gather_rows_apply (N := 100000) (E := 1600000) (C := 128) (by decide) (Cert.ReferenceIdeal.gather_S100000x128_S1600000x1_S1600000x128_1_0_n_n_0_1_1128).wf h (wrapCol src) e c
  · exact gather_vec_apply (N := 100000) (E := 1600000) (by decide) (Cert.ReferenceIdeal.gather_S100000_S1600000x1_S1600000_n_0_n_n_0_1_1).wf (dinvOf dst) (wrapCol src) e
  · exact gather_vec_apply (N := 100000) (E := 1600000) (by decide) (Cert.ReferenceIdeal.gather_S100000_S1600000x1_S1600000_n_0_n_n_0_1_1).wf (dinvOf dst) (wrapCol dst) e

/-- THE LAW: the reference's layer is the kernel's. -/
theorem layer_eq (x : FVec Ideal Cert.ReferenceIdeal.S100000x128 .f32) (ei : IVec Cert.ReferenceIdeal.S2x1600000 32)
    (w : FVec Ideal Cert.ReferenceIdeal.S128x128 .f32) (b : FVec Ideal Cert.ReferenceIdeal.S128 .f32) :
    layer x ei w b = Cert.KernelIdeal.KDefs.layer x ei w b := by
  funext i
  obtain ⟨n, c, rfl⟩ : ∃ (n : Fin 100000) (c : Fin 128), i = ix2 n c := ⟨i 0, i 1, eq_ix2 i⟩
  obtain ⟨h0, ht⟩ := dinv_nonneg_ne_top (dstOf ei) n
  -- the reference at (n, c)
  unfold layer
  rw [Cert.Gcn.host_relu_apply, addf_apply, Cert.Gcn.host_bias_apply, addf_apply, mulf_apply,
    Cert.Gcn.column_spread_apply, mulf_apply, host_dot_apply Cert.ReferenceIdeal.dot_S100000x128_S128x128_S100000x128_1_0_0_1_n_n rfl x w n c]
  -- the kernel at (n, c)
  unfold Cert.KernelIdeal.KDefs.layer
  rw [finished_apply]
  unfold fin
  rw [srcOf_eq, dstOf_eq, dcol_apply, row128_apply]
  have hhp : ∀ (s : Fin 100000) (c' : Fin 128),
      transformed (N := 100000) (K := 128) (B := 128) x w (Cert.KernelIdeal.KDefs.dcolOf (dstOf ei)) (ix2 s c')
        = (∑ k : Fin 128, x (ix2 s k) * w (ix2 k c')) * dinvOf (dstOf ei) (ix1 s) := fun s c' => by
    unfold transformed
    rw [dcol_apply]
  rw [hhp n c]
  refine (finish_entry h0 ht ?_).symm
  -- the factor comes out of the sum over the landing edges
  unfold Cert.KernelIdeal.KDefs.aggOf
  rw [dstCol_eq, srcCol_eq]
  refine hostScatterAdd_factor Cert.KernelIdeal.scatter_S100000x128_S1600000x1_S1600000x128_1_0_0_1 _ _ (rawCol (dstOf ei)) _ _ (ix2 n c) _ ?_ ?_ h0 ht fun j hj => ?_
  · rw [bcast_const_apply, Ideal.ofBits_zero_f32]
  · rw [bcast_const_apply, Ideal.ofBits_zero_f32]
  · obtain ⟨e, c', rfl⟩ : ∃ (e : Fin 1600000) (c' : Fin 128), j = ix2 e c' := ⟨j 0, j 1, eq_ix2 j⟩
    have hl : (rawCol (dstOf ei) (ix2 e (0 : Fin 1))).toInt = (n.val : Int) :=
      rowScatter_lands (N := 100000) (E := 1600000) (C := 128) (Cert.KernelIdeal.scatter_S100000x128_S1600000x1_S1600000x128_1_0_0_1).wf (rawCol (dstOf ei)) (ix2 e c') (ix2 n c) hj
    rw [messages_apply, pick_dst_of_lands (dstOf ei) e n hl, host_dot_apply Cert.ReferenceIdeal.dot_S100000x128_S128x128_S100000x128_1_0_0_1_n_n rfl x w, extf_apply]
    refine ((congrArg (· * dinvOf (dstOf ei) (ix1 n))
      ((gather_rows_apply (N := 100000) (E := 1600000) (C := 128) (by decide) (Cert.KernelIdeal.gather_S100000x128_S1600000x1_S1600000x128_1_0_n_n_0_1_1128).wf _ (wrapCol (srcOf ei)) e c').trans
        (hhp _ c'))).trans ?_)
    exact mul_assoc _ _ _

/-! ## The classifier and the result -/

/-- The reference's classifier is the kernel's two dense stages. -/
theorem classifier_eq (h : FVec Ideal Cert.ReferenceIdeal.S100000x128 .f32) (wc1 : FVec Ideal Cert.ReferenceIdeal.S128x128 .f32) (bc1 : FVec Ideal Cert.ReferenceIdeal.S128 .f32)
    (wc2 : FVec Ideal Cert.ReferenceIdeal.S128x32 .f32) (bc2 : FVec Ideal Cert.ReferenceIdeal.S32 .f32) :
    classifier h wc1 bc1 wc2 bc2
      = denseLogistic (N := 100000) (K := 128) (B := 32)
          (denseRelu (N := 100000) (K := 128) (B := 128) h wc1 (Cert.KernelIdeal.KDefs.row128 bc1)) wc2 (Cert.KernelIdeal.KDefs.row32 bc2) := by
  funext i
  obtain ⟨n, q, rfl⟩ : ∃ (n : Fin 100000) (q : Fin 32), i = ix2 n q := ⟨i 0, i 1, eq_ix2 i⟩
  unfold classifier
  rw [Cert.Gcn.host_logistic_apply, addf_apply, Cert.Gcn.host_bias_apply, host_dot_apply Cert.ReferenceIdeal.dot_S100000x128_S128x32_S100000x32_1_0_0_1_n_n rfl _ wc2 n q]
  unfold denseLogistic
  rw [row32_apply]
  refine congrArg (fun s => Ideal.logistic (s + bc2 (ix1 q))) (Finset.sum_congr rfl fun k _ => congrArg (· * wc2 (ix2 k q)) ?_)
  rw [Cert.Gcn.host_relu_apply, addf_apply, Cert.Gcn.host_bias_apply, host_dot_apply Cert.ReferenceIdeal.dot_S100000x128_S128x128_S100000x128_1_0_0_1_n_n rfl h wc1 n k]
  unfold denseRelu
  rw [row128_apply]

/-- The two programs compute one function of the argument arrays. -/
theorem result_eq (x0 : FVec Ideal Cert.ReferenceIdeal.S100000x128 .f32) (x1 : IVec Cert.ReferenceIdeal.S2x1600000 32)
    (x3 : FVec Ideal Cert.ReferenceIdeal.S128x128 .f32) (x4 : FVec Ideal Cert.ReferenceIdeal.S128 .f32) (x5 : FVec Ideal Cert.ReferenceIdeal.S128x128 .f32) (x6 : FVec Ideal Cert.ReferenceIdeal.S128 .f32)
    (x7 : FVec Ideal Cert.ReferenceIdeal.S128x128 .f32) (x8 : FVec Ideal Cert.ReferenceIdeal.S128 .f32) (x9 : FVec Ideal Cert.ReferenceIdeal.S128x128 .f32) (x10 : FVec Ideal Cert.ReferenceIdeal.S128 .f32)
    (x11 : FVec Ideal Cert.ReferenceIdeal.S128x32 .f32) (x12 : FVec Ideal Cert.ReferenceIdeal.S32 .f32) :
    Cert.ReferenceIdeal.Read.val_main_v153 (F := Ideal) x0 x1 x3 x4 x5 x6 x7 x8 x9 x10 x11 x12
      = Cert.KernelIdeal.KDefs.out x0 x1 x3 x4 x5 x6 x7 x8 x9 x10 x11 x12 := by
  rw [Cert.ReferenceIdeal.RVal.result_eq, classifier_eq, layer_eq, layer_eq, layer_eq]
  rfl

end Cert.Law

end
-- ==== Proof.lean ====
/-
  The certificate of a three-layer normalised graph-convolution network with a two-layer classifier: a kernel of five
  pipelined regions (a transform, two finish-and-transform stages, a finish-and-dense stage, a dense-and-logistic
  stage) with the edge gathers and segment sums on the host between them, against a plain host program.

  Frames. The two kernel programs run by the frame certificates of their five regions and four host stretches; the
  reference, a host program, by its run read back.

  Values, at the ideal values (floats are extended reals, operations exact, changes of float format the identity).
  The kernel scales each layer's features by the per-node factor d(n) = 1 / sqrt(1 + in-degree(n)) before they are
  gathered along the edges and summed into their destinations, and multiplies the sum by d(n) afterwards; the reference
  multiplies every edge's message by d(source) · d(destination) before the sum. An edge summed into node n has
  destination n, so d(destination) = d(n) is common to the summands, and d(n) — a nonnegative real — comes out of the
  sum of extended reals whatever the summands are (`Cert.Law.layer_eq`). The products are the same sums over the 128
  input channels in both programs (a matrix product into a zero accumulator on a tile of rows against the host's
  product of all rows), the rectifier a maximum with zero, the last stage the logistic function in both. No use is
  made of the inputs being finite, and none of the index inputs being in range: a gather clamps, a scatter drops, and
  both programs index the same way.
-/
import proofs.«167632_j10067403342134_2_alg».proof.Defs
import proofs.«167632_j10067403342134_2_alg».proof.Proof.Gen.Kernel
import proofs.«167632_j10067403342134_2_alg».proof.Proof.Gen.KernelIdeal
import proofs.«167632_j10067403342134_2_alg».proof.Proof.Gen.ReferenceIdeal
import proofs.«167632_j10067403342134_2_alg».proof.Proof.Gen.Pre_finite_inputs
import proofs.«167632_j10067403342134_2_alg».proof.Proof.Gen.ReferenceIdeal.Run
import proofs.«167632_j10067403342134_2_alg».proof.Proof.Gen.ReferenceIdeal.Read
import proofs.«167632_j10067403342134_2_alg».proof.Proof.KernelFrameP
import proofs.«167632_j10067403342134_2_alg».proof.Proof.KernelIdealFrameP
import proofs.«167632_j10067403342134_2_alg».proof.Proof.KRun
import proofs.«167632_j10067403342134_2_alg».proof.Proof.KVal
import proofs.«167632_j10067403342134_2_alg».proof.Proof.Law
import Idealize.ShloMosaic.Adequacy
import Idealize.ShloMosaic.Init

set_option maxRecDepth 65536

noncomputable section

namespace Cert.Proof

open Idealize.ShloMosaic Idealize.SL.Sem

/-- The word-level kernel runs and leaves its arguments as launched. -/
theorem frame_kernel : Cert.frame_Kernel := fun m ρ _ => Cert.Kernel.GenP.frame m ρ

/-- The idealized kernel runs and leaves its arguments as launched. -/
theorem frame_kernelIdeal : Cert.frame_KernelIdeal := fun m ρ _ => Cert.KernelIdeal.GenP.frame m ρ

/-- The idealized reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments both idealized programs end with the same result: the kernel's function
    of the argument arrays (the boundary contents followed through @main), which the reference's composed term equals. -/
theorem algebraic : Cert.algebraic_KernelIdeal_ReferenceIdeal := by
  intro m ρ m' ρ' _ hagree
  refine ⟨fun c => Cert.KernelIdeal.KVal.res m c, ?_, ?_⟩
  · exact (θ_run Cert.KernelIdeal.defs _ _).mono
      (fun r h c => ⟨(h c).1.trans (Cert.KernelIdeal.KVal.result m ρ c), (h c).2⟩) (Cert.KernelIdeal.KRun.run m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11, a12⟩ := hagree c
    rw [Cert.ReferenceIdeal.Read.val_main_v153_eq, a0, a1, a3, a4, a5, a6, a7, a8, a9, a10, a11, a12]
    exact (Cert.Law.result_eq _ _ _ _ _ _ _ _ _ _ _ _).trans (Cert.KernelIdeal.KVal.res_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
